-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S10000 : Shape := ⟨1, ![10000]⟩
abbrev S100000 : Shape := ⟨1, ![100000]⟩
abbrev S1000000 : Shape := ⟨1, ![1000000]⟩
abbrev S500000 : Shape := ⟨1, ![500000]⟩
abbrev S10000x64 : Shape := ⟨2, ![10000, 64]⟩
abbrev S200x64 : Shape := ⟨2, ![200, 64]⟩
abbrev S1000x64 : Shape := ⟨2, ![1000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S1000x64 : S_.BroadcastsInDim S1000x64 (![] : Fin 0 → Fin S1000x64.rank)
  reducesTo_S1000x64_S_d0_1 : S1000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg26 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg26
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg22 : FVec F S64 .f32) (main_arg23 : FVec F S64x32 .f32) (main_arg24 : FVec F S32 .f32) (main_arg25 : FVec F S32x1 .f32) (main_arg26 : FVec F S1 .f32) (main_v63 : IVec S_ 1) (main_v67 : IVec S_ 1) : IVec S_ 1 :=
  let main_v68 : IVec S_ 1 := andi main_v63 main_v67
  let main_v69 : FVec F S64 .f32 := Host.absf main_arg22
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg23
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg24
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg25
  let main_cst_32 : FVec F S_ .f32 := constant S_ .f32 0x7F800000#32
  fn_part5 (F := F) main_arg26 main_v83 main_v84 main_cst_32

def fn_part3 {F : FTy → Type} [FloatOps F] (main_arg19 : FVec F S64x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg19
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg20
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg21
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg22 main_arg23 main_arg24 main_arg25 main_arg26 main_v63 main_v67

def fn_part2 {F : FTy → Type} [FloatOps F] (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v33 : IVec S_ 1) : IVec S_ 1 :=
  let main_v34 : FVec F S64x64 .f32 := Host.absf main_arg15
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg16
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg17
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg18
  let main_cst_18 : FVec F S_ .f32 := constant S_ .f32 0x7F800000#32
  let main_v50 : FVec F S64 .f32 := broadcastInDim S64 ![] bcast_S_S64 main_cst_18
  fn_part3 (F := F) main_arg19 main_arg20 main_arg21 main_arg22 main_arg23 main_arg24 main_arg25 main_arg26 main_v48 main_v49 main_v50

def fn_part1 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg12
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg13
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg14
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_v33

def fn {F : FTy → Type} [FloatOps F] (main_arg0 : IVec S200000 32) (main_arg1 : IVec S10000 32) (main_arg2 : IVec S100000 32) (main_arg3 : IVec S1000000 32) (main_arg4 : IVec S1000000 32) (main_arg5 : IVec S1000000 32) (main_arg6 : IVec S1000000 32) (main_arg7 : IVec S500000 32) (main_arg8 : FVec F S10000x64 .f32) (main_arg9 : FVec F S200x64 .f32) (main_arg10 : FVec F S1000x64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) : IVec S_ 1 :=
  let main_v0 : FVec F S10000x64 .f32 := Host.absf main_arg8
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S200x64 .f32 := Host.absf main_arg9
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S1000x64 .f32 := Host.absf main_arg10
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S64x64 .f32 := Host.absf main_arg11
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_v13 main_v16
-- ==== Kernel.lean ====
abbrev S200000 : Shape := ⟨1, ![200000]⟩
abbrev S10000 : Shape := ⟨1, ![10000]⟩
abbrev S100000 : Shape := ⟨1, ![100000]⟩
abbrev S1000000 : Shape := ⟨1, ![1000000]⟩
abbrev S500000 : Shape := ⟨1, ![500000]⟩
abbrev S10000x64 : Shape := ⟨2, ![10000, 64]⟩
abbrev S200x64 : Shape := ⟨2, ![200, 64]⟩
abbrev S1000x64 : Shape := ⟨2, ![1000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S1x32 : Shape := ⟨2, ![1, 32]⟩
abbrev S1x1 : Shape := ⟨2, ![1, 1]⟩
abbrev S10000x1 : Shape := ⟨2, ![10000, 1]⟩
abbrev S10000x32 : Shape := ⟨2, ![10000, 32]⟩
abbrev S500000x1 : Shape := ⟨2, ![500000, 1]⟩

abbrev nBuf : Space → Nat
  | .hbm => 93
  | .vmem => 16
  | .smem => 0
  | _ => 0

abbrev bufTy : (tb : Table) → Fin (tcTables nBuf tb) → BufTy
  | .hbm, ⟨0, _⟩ => ⟨S200000, .i32⟩
  | .hbm, ⟨1, _⟩ => ⟨S10000, .i32⟩
  | .hbm, ⟨2, _⟩ => ⟨S100000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S500000, .i32⟩
  | .hbm, ⟨8, _⟩ => ⟨S10000x64, .f32⟩
  | .hbm, ⟨9, _⟩ => ⟨S200x64, .f32⟩
  | .hbm, ⟨10, _⟩ => ⟨S1000x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S64x32, .f32⟩
  | .hbm, ⟨24, _⟩ => ⟨S32, .f32⟩
  | .hbm, ⟨25, _⟩ => ⟨S32x1, .f32⟩
  | .hbm, ⟨26, _⟩ => ⟨S1, .f32⟩
  | .hbm, ⟨27, _⟩ => ⟨S1x64, .f32⟩
  | .hbm, ⟨28, _⟩ => ⟨S10000x64, .f32⟩
  | .hbm, ⟨29, _⟩ => ⟨S1x64, .f32⟩
  | .hbm, ⟨30, _⟩ => ⟨S1000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000, .i32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S_, .f32⟩
  | .hbm, ⟨68, _⟩ => ⟨S10000x64, .f32⟩
  | .hbm, ⟨69, _⟩ => ⟨S1000000x1, .i32⟩
  | .hbm, ⟨70, _⟩ => ⟨S10000x64, .f32⟩
  | .hbm, ⟨71, _⟩ => ⟨S_, .f32⟩
  | .hbm, ⟨72, _⟩ => ⟨S10000x64, .f32⟩
  | .hbm, ⟨73, _⟩ => ⟨S1000000x1, .i32⟩
  | .hbm, ⟨74, _⟩ => ⟨S10000x64, .f32⟩
  | .hbm, ⟨75, _⟩ => ⟨S10000x64, .f32⟩
  | .hbm, ⟨76, _⟩ => ⟨S_, .f32⟩
  | .hbm, ⟨77, _⟩ => ⟨S10000x64, .f32⟩
  | .hbm, ⟨78, _⟩ => ⟨S10000x64, .f32⟩
  | .hbm, ⟨79, _⟩ => ⟨S1x64, .f32⟩
  | .hbm, ⟨80, _⟩ => ⟨S1x32, .f32⟩
  | .hbm, ⟨81, _⟩ => ⟨S1x1, .f32⟩
  | .hbm, ⟨82, _⟩ => ⟨S10000x1, .f32⟩
  | .hbm, ⟨83, _⟩ => ⟨S_, .i32⟩
  | .hbm, ⟨84, _⟩ => ⟨S500000, .i32⟩
  | .hbm, ⟨85, _⟩ => ⟨S500000, .i1⟩
  | .hbm, ⟨86, _⟩ => ⟨S_, .i32⟩
  | .hbm, ⟨87, _⟩ => ⟨S500000, .i32⟩
  | .hbm, ⟨88, _⟩ => ⟨S500000, .i32⟩
  | .hbm, ⟨89, _⟩ => ⟨S500000, .i32⟩
  | .hbm, ⟨90, _⟩ => ⟨S500000x1, .i32⟩
  | .hbm, ⟨91, _⟩ => ⟨S500000x1, .f32⟩
  | .hbm, ⟨92, _⟩ => ⟨S500000, .f32⟩
  | .local _ .vmem, ⟨0, _⟩ => ⟨S10000x64, .f32⟩
  | .local _ .vmem, ⟨1, _⟩ => ⟨S64x64, .f32⟩
  | .local _ .vmem, ⟨2, _⟩ => ⟨S1x64, .f32⟩
  | .local _ .vmem, ⟨3, _⟩ => ⟨S10000x64, .f32⟩
  | .local _ .vmem, ⟨4, _⟩ => ⟨S1000x64, .f32⟩
  | .local _ .vmem, ⟨5, _⟩ => ⟨S64x64, .f32⟩
  | .local _ .vmem, ⟨6, _⟩ => ⟨S1x64, .f32⟩
  | .local _ .vmem, ⟨7, _⟩ => ⟨S1000x64, .f32⟩
  | .local _ .vmem, ⟨8, _⟩ => ⟨S10000x64, .f32⟩
  | .local _ .vmem, ⟨9, _⟩ => ⟨S64x64, .f32⟩
  | .local _ .vmem, ⟨10, _⟩ => ⟨S1x64, .f32⟩
  | .local _ .vmem, ⟨11, _⟩ => ⟨S64x32, .f32⟩
  | .local _ .vmem, ⟨12, _⟩ => ⟨S1x32, .f32⟩
  | .local _ .vmem, ⟨13, _⟩ => ⟨S32x1, .f32⟩
  | .local _ .vmem, ⟨14, _⟩ => ⟨S1x1, .f32⟩
  | .local _ .vmem, ⟨15, _⟩ => ⟨S10000x1, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_3 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_5 : Ref sig .tc := ⟨.hbm, 58, rfl⟩
abbrev main_v25 : Ref sig .tc := ⟨.hbm, 59, rfl⟩
abbrev main_v26 : Ref sig .tc := ⟨.hbm, 60, rfl⟩
abbrev main_c_6 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_9 : Ref sig .tc := ⟨.hbm, 83, rfl⟩
abbrev main_v45 : Ref sig .tc := ⟨.hbm, 84, rfl⟩
abbrev main_v46 : Ref sig .tc := ⟨.hbm, 85, rfl⟩
abbrev main_c_10 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem6_0 : DmaSem sig := 14
abbrev cc2_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10000x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S1000x64_S1000x64_0_0 : ∀ a, (![0, 0] : Fin 2 → Nat) a + S1000x64.size a ≤ S1000x64.size a
  h_S1000x64 : 0 < S1000x64.numel
  broadcasts_S1x64_S1000x64 : S1x64.Broadcasts S1000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S10000x64 : S_.BroadcastsInDim S10000x64 (![] : Fin 0 → Fin S10000x64.rank)
  shapeCasts_S32_S1x32 : S32.ShapeCasts S1x32
  shapeCasts_S1_S1x1 : S1.ShapeCasts S1x1
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x1_S500000 : S500000x1.ShapeCasts S500000
  dot_S10000x64_S64x64_S10000x64_1_0_0_1_n_n_wf : DotDims.WF S10000x64 S64x64 S10000x64 [1] [0] [0] [1] [] []
  dot_S1000x64_S64x64_S1000x64_1_0_0_1_n_n_wf : DotDims.WF S1000x64 S64x64 S1000x64 [1] [0] [0] [1] [] []
  gather_S200000_S1000000x1_S1000000_n_0_n_n_0_1_1_wf : GatherDims.WF S200000 S1000000x1 S1000000 [] [0] [] [0] [] 1 ![1]
  gather_S100000_S1000000x1_S1000000_n_0_n_n_0_1_1_wf : GatherDims.WF S100000 S1000000x1 S1000000 [] [0] [] [0] [] 1 ![1]
  gather_S10000x64_S1000000x1_S1000000x64_1_0_n_n_0_1_164_wf : GatherDims.WF S10000x64 S1000000x1 S1000000x64 [1] [0] [] [0] [] 1 ![1, 64]
  gather_S1000x64_S1000000x1_S1000000x64_1_0_n_n_0_1_164_wf : GatherDims.WF S1000x64 S1000000x1 S1000000x64 [1] [0] [] [0] [] 1 ![1, 64]
  scatter_S10000x64_S1000000x1_S1000000x64_1_0_0_1_wf : ScatterDims.WF S10000x64 S1000000x1 S1000000x64 [1] [0] [0] 1
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  gather_S10000x1_S500000x1_S500000x1_1_0_n_n_0_1_11_wf : GatherDims.WF S10000x1 S500000x1 S500000x1 [1] [0] [] [0] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S10000x64.size a
  hwx0_0 : ∀ i : grid0.Coords, EltTy.bits .f32 = 32 ∨ (Rect.block (s := S10000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S10000x64.size a
  hwx0_3 : ∀ i : grid0.Coords, EltTy.bits .f32 = 32 ∨ (Rect.block (s := S10000x64) S10000x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S1000x64.size a
  hwx1_0 : ∀ i : grid1.Coords, EltTy.bits .f32 = 32 ∨ (Rect.block (s := S1000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S1000x64.size a
  hwx1_3 : ∀ i : grid1.Coords, EltTy.bits .f32 = 32 ∨ (Rect.block (s := S1000x64) S1000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S10000x64.size a
  hwx2_0 : ∀ i : grid2.Coords, EltTy.bits .f32 = 32 ∨ (Rect.block (s := S10000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10000x1.size a ≤ S10000x1.size a
  hwx2_7 : ∀ i : grid2.Coords, EltTy.bits .f32 = 32 ∨ (Rect.block (s := S10000x1) S10000x1.size (cc2_transform_7 i) (hinb2_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S10000x64_S1000000x1_S1000000x64_1_0_n_n_0_1_164 : GatherDims S10000x64 S1000000x1 S1000000x64 where
  offsetDims := [1]
  collapsedSliceDims := [0]
  operandBatchingDims := []
  startIndicesBatchingDims := []
  startIndexMap := [0]
  indexVectorDim := 1
  sliceSizes := ![1, 64]
  wf := gather_S10000x64_S1000000x1_S1000000x64_1_0_n_n_0_1_164_wf
def gather_S1000x64_S1000000x1_S1000000x64_1_0_n_n_0_1_164 : GatherDims S1000x64 S1000000x1 S1000000x64 where
  offsetDims := [1]
  collapsedSliceDims := [0]
  operandBatchingDims := []
  startIndicesBatchingDims := []
  startIndexMap := [0]
  indexVectorDim := 1
  sliceSizes := ![1, 64]
  wf := gather_S1000x64_S1000000x1_S1000000x64_1_0_n_n_0_1_164_wf
def scatter_S10000x64_S1000000x1_S1000000x64_1_0_0_1 : ScatterDims S10000x64 S1000000x1 S1000000x64 where
  updateWindowDims := [1]
  insertedWindowDims := [0]
  scatterDimsToOperandDims := [0]
  indexVectorDim := 1
  wf := scatter_S10000x64_S1000000x1_S1000000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S10000x1_S500000x1_S500000x1_1_0_n_n_0_1_11 : GatherDims S10000x1 S500000x1 S500000x1 where
  offsetDims := [1]
  collapsedSliceDims := [0]
  operandBatchingDims := []
  startIndicesBatchingDims := []
  startIndexMap := [0]
  indexVectorDim := 1
  sliceSizes := ![1, 1]
  wf := gather_S10000x1_S500000x1_S500000x1_1_0_n_n_0_1_11_wf

abbrev win0_0 : Pipeline.Window sig grid0 :=
  Pipeline.Window.ofSpec (Memref.whole main_arg8) S10000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg17) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg10) S1000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg19) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S10000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg21) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg23) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg25) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S10000x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S200000 : Shape := ⟨1, ![200000]⟩
abbrev S10000 : Shape := ⟨1, ![10000]⟩
abbrev S100000 : Shape := ⟨1, ![100000]⟩
abbrev S1000000 : Shape := ⟨1, ![1000000]⟩
abbrev S500000 : Shape := ⟨1, ![500000]⟩
abbrev S10000x64 : Shape := ⟨2, ![10000, 64]⟩
abbrev S200x64 : Shape := ⟨2, ![200, 64]⟩
abbrev S1000x64 : Shape := ⟨2, ![1000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S200000x1 : Shape := ⟨2, ![200000, 1]⟩
abbrev S200000x64 : Shape := ⟨2, ![200000, 64]⟩
abbrev S10000x1 : Shape := ⟨2, ![10000, 1]⟩
abbrev S100000x1 : Shape := ⟨2, ![100000, 1]⟩
abbrev S100000x64 : Shape := ⟨2, ![100000, 64]⟩
abbrev S1000000x1 : Shape := ⟨2, ![1000000, 1]⟩
abbrev S1000000x64 : Shape := ⟨2, ![1000000, 64]⟩
abbrev S1x64 : Shape := ⟨2, ![1, 64]⟩
abbrev S500000x1 : Shape := ⟨2, ![500000, 1]⟩
abbrev S500000x64 : Shape := ⟨2, ![500000, 64]⟩
abbrev S500000x32 : Shape := ⟨2, ![500000, 32]⟩
abbrev S1x32 : Shape := ⟨2, ![1, 32]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S200000, .i32⟩
  | 1 => ⟨S10000, .i32⟩
  | 2 => ⟨S100000, .i32⟩
  | 3 => ⟨S1000000, .i32⟩
  | 4 => ⟨S1000000, .i32⟩
  | 5 => ⟨S1000000, .i32⟩
  | 6 => ⟨S1000000, .i32⟩
  | 7 => ⟨S500000, .i32⟩
  | 8 => ⟨S10000x64, .f32⟩
  | 9 => ⟨S200x64, .f32⟩
  | 10 => ⟨S1000x64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x32, .f32⟩
  | 24 => ⟨S32, .f32⟩
  | 25 => ⟨S32x1, .f32⟩
  | 26 => ⟨S1, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x64, .f32⟩
  | 36 => ⟨S_, .i32⟩
  | 37 => ⟨S10000, .i32⟩
  | 38 => ⟨S10000, .i1⟩
  | 39 => ⟨S_, .i32⟩
  | 40 => ⟨S10000, .i32⟩
  | 41 => ⟨S10000, .i32⟩
  | 42 => ⟨S10000, .i32⟩
  | 43 => ⟨S10000x1, .i32⟩
  | 44 => ⟨S10000x64, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x64, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x64, .f32⟩
  | 63 => ⟨S1000000x64, .f32⟩
  | 64 => ⟨S1x64, .f32⟩
  | 65 => ⟨S1000000x64, .f32⟩
  | 66 => ⟨S1000000x64, .f32⟩
  | 67 => ⟨S_, .f32⟩
  | 68 => ⟨S10000x64, .f32⟩
  | 69 => ⟨S1000000x1, .i32⟩
  | 70 => ⟨S10000x64, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x64, .f32⟩
  | 80 => ⟨S1000000x64, .f32⟩
  | 81 => ⟨S1x64, .f32⟩
  | 82 => ⟨S1000000x64, .f32⟩
  | 83 => ⟨S1000000x64, .f32⟩
  | 84 => ⟨S_, .f32⟩
  | 85 => ⟨S10000x64, .f32⟩
  | 86 => ⟨S1000000x1, .i32⟩
  | 87 => ⟨S10000x64, .f32⟩
  | 88 => ⟨S10000x64, .f32⟩
  | 89 => ⟨S_, .f32⟩
  | 90 => ⟨S10000x64, .f32⟩
  | 91 => ⟨S10000x64, .f32⟩
  | 92 => ⟨S10000x64, .f32⟩
  | 93 => ⟨S1x64, .f32⟩
  | 94 => ⟨S10000x64, .f32⟩
  | 95 => ⟨S10000x64, .f32⟩
  | 96 => ⟨S_, .f32⟩
  | 97 => ⟨S200000x64, .f32⟩
  | 98 => ⟨S200000x64, .f32⟩
  | 99 => ⟨S_, .f32⟩
  | 100 => ⟨S10000x64, .f32⟩
  | 101 => ⟨S10000x64, .f32⟩
  | 102 => ⟨S_, .f32⟩
  | 103 => ⟨S100000x64, .f32⟩
  | 104 => ⟨S100000x64, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S1000000x64, .f32⟩
  | 115 => ⟨S1x64, .f32⟩
  | 116 => ⟨S1000000x64, .f32⟩
  | 117 => ⟨S1000000x64, .f32⟩
  | 118 => ⟨S_, .f32⟩
  | 119 => ⟨S10000x64, .f32⟩
  | 120 => ⟨S1000000x1, .i32⟩
  | 121 => ⟨S10000x64, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S200000, .i32⟩

abbrev hbmTy0_1 (i : Nat) : BufTy := match i % 128 with
  | 0 => ⟨S1000000, .i32⟩
  | 1 => ⟨S1000000x1, .i32⟩
  | 2 => ⟨S1000000x64, .f32⟩
  | 3 => ⟨S1000000x64, .f32⟩
  | 4 => ⟨S1x64, .f32⟩
  | 5 => ⟨S1000000x64, .f32⟩
  | 6 => ⟨S1000000x64, .f32⟩
  | 7 => ⟨S_, .f32⟩
  | 8 => ⟨S10000x64, .f32⟩
  | 9 => ⟨S1000000x1, .i32⟩
  | 10 => ⟨S10000x64, .f32⟩
  | 11 => ⟨S10000x64, .f32⟩
  | 12 => ⟨S_, .f32⟩
  | 13 => ⟨S10000x64, .f32⟩
  | 14 => ⟨S10000x64, .f32⟩
  | 15 => ⟨S10000x64, .f32⟩
  | 16 => ⟨S1x64, .f32⟩
  | 17 => ⟨S10000x64, .f32⟩
  | 18 => ⟨S10000x64, .f32⟩
  | 19 => ⟨S_, .f32⟩
  | 20 => ⟨S200000x64, .f32⟩
  | 21 => ⟨S200000x64, .f32⟩
  | 22 => ⟨S_, .f32⟩
  | 23 => ⟨S10000x64, .f32⟩
  | 24 => ⟨S10000x64, .f32⟩
  | 25 => ⟨S_, .f32⟩
  | 26 => ⟨S100000x64, .f32⟩
  | 27 => ⟨S100000x64, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x64, .f32⟩
  | 37 => ⟨S500000x32, .f32⟩
  | 38 => ⟨S1x32, .f32⟩
  | 39 => ⟨S500000x32, .f32⟩
  | 40 => ⟨S500000x32, .f32⟩
  | 41 => ⟨S_, .f32⟩
  | 42 => ⟨S500000x32, .f32⟩
  | 43 => ⟨S500000x32, .f32⟩
  | 44 => ⟨S500000x1, .f32⟩
  | 45 => ⟨S1x1, .f32⟩
  | 46 => ⟨S500000x1, .f32⟩
  | 47 => ⟨S500000x1, .f32⟩
  | 48 => ⟨S500000x1, .f32⟩
  | 49 => ⟨S500000x1, .f32⟩
  | 50 => ⟨S_, .f32⟩
  | 51 => ⟨S500000x1, .f32⟩
  | 52 => ⟨S500000x1, .f32⟩
  | 53 => ⟨S_, .f32⟩
  | 54 => ⟨S500000x1, .f32⟩
  | 55 => ⟨S500000x1, .f32⟩
  | 56 => ⟨S500000, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_7 : Ref sig .tc := ⟨.hbm, 71, rfl⟩
abbrev main_v35 : Ref sig .tc := ⟨.hbm, 72, rfl⟩
abbrev main_v36 : Ref sig .tc := ⟨.hbm, 73, rfl⟩
abbrev main_c_8 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_call0_cst : Ref sig .tc := ⟨.hbm, 96, rfl⟩
abbrev main_call0_v0 : Ref sig .tc := ⟨.hbm, 97, rfl⟩
abbrev main_v56 : Ref sig .tc := ⟨.hbm, 98, rfl⟩
abbrev main_call1_cst : Ref sig .tc := ⟨.hbm, 99, rfl⟩
abbrev main_call1_v0 : Ref sig .tc := ⟨.hbm, 100, rfl⟩
abbrev main_v57 : Ref sig .tc := ⟨.hbm, 101, rfl⟩
abbrev main_call2_cst : Ref sig .tc := ⟨.hbm, 102, rfl⟩
abbrev main_call2_v0 : Ref sig .tc := ⟨.hbm, 103, rfl⟩
abbrev main_v58 : Ref sig .tc := ⟨.hbm, 104, rfl⟩
abbrev main_c_11 : Ref sig .tc := ⟨.hbm, 105, rfl⟩
abbrev main_v59 : Ref sig .tc := ⟨.hbm, 106, rfl⟩
abbrev main_v60 : Ref sig .tc := ⟨.hbm, 107, rfl⟩
abbrev main_c_12 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_14 : Ref sig .tc := ⟨.hbm, 122, rfl⟩
abbrev main_v73 : Ref sig .tc := ⟨.hbm, 123, rfl⟩
abbrev main_v74 : Ref sig .tc := ⟨.hbm, 124, rfl⟩
abbrev main_c_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_16 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_17 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_call3_cst : Ref sig .tc := ⟨.hbm, 147, rfl⟩
abbrev main_call3_v0 : Ref sig .tc := ⟨.hbm, 148, rfl⟩
abbrev main_v94 : Ref sig .tc := ⟨.hbm, 149, rfl⟩
abbrev main_call4_cst : Ref sig .tc := ⟨.hbm, 150, rfl⟩
abbrev main_call4_v0 : Ref sig .tc := ⟨.hbm, 151, rfl⟩
abbrev main_v95 : Ref sig .tc := ⟨.hbm, 152, rfl⟩
abbrev main_call5_cst : Ref sig .tc := ⟨.hbm, 153, rfl⟩
abbrev main_call5_v0 : Ref sig .tc := ⟨.hbm, 154, rfl⟩
abbrev main_v96 : Ref sig .tc := ⟨.hbm, 155, rfl⟩
abbrev main_c_18 : Ref sig .tc := ⟨.hbm, 156, rfl⟩
abbrev main_v97 : Ref sig .tc := ⟨.hbm, 157, rfl⟩
abbrev main_v98 : Ref sig .tc := ⟨.hbm, 158, rfl⟩
abbrev main_c_19 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_call6_cst : Ref sig .tc := ⟨.hbm, 169, rfl⟩
abbrev main_call6_v0 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_20 : Ref sig .tc := ⟨.hbm, 178, rfl⟩
abbrev main_v115 : Ref sig .tc := ⟨.hbm, 179, rfl⟩
abbrev main_v116 : Ref sig .tc := ⟨.hbm, 180, rfl⟩
abbrev main_cst_21 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S10000x64 : S_.BroadcastsInDim S10000x64 (![] : Fin 0 → Fin S10000x64.rank)
  bcast_S1x64_S10000x64_0_1 : S1x64.BroadcastsInDim S10000x64 (![0, 1] : Fin 2 → Fin S10000x64.rank)
  bcast_S_S200000x64 : S_.BroadcastsInDim S200000x64 (![] : Fin 0 → Fin S200000x64.rank)
  bcast_S_S100000x64 : S_.BroadcastsInDim S100000x64 (![] : Fin 0 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  gather_S10000x64_S200000x1_S200000x64_1_0_n_n_0_1_164_wf : GatherDims.WF S10000x64 S200000x1 S200000x64 [1] [0] [] [0] [] 1 ![1, 64]
  gather_S200x64_S10000x1_S10000x64_1_0_n_n_0_1_164_wf : GatherDims.WF S200x64 S10000x1 S10000x64 [1] [0] [] [0] [] 1 ![1, 64]
  gather_S1000x64_S100000x1_S100000x64_1_0_n_n_0_1_164_wf : GatherDims.WF S1000x64 S100000x1 S100000x64 [1] [0] [] [0] [] 1 ![1, 64]
  gather_S200000x64_S1000000x1_S1000000x64_1_0_n_n_0_1_164_wf : GatherDims.WF S200000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S10000x64_S1000000x1_S1000000x64_1_0_0_1_wf : ScatterDims.WF S10000x64 S1000000x1 S1000000x64 [1] [0] [0] 1
  gather_S100000x64_S1000000x1_S1000000x64_1_0_n_n_0_1_164_wf : GatherDims.WF S100000x64 S1000000x1 S1000000x64 [1] [0] [] [0] [] 1 ![1, 64]
  dot_S10000x64_S64x64_S10000x64_1_0_0_1_n_n_wf : DotDims.WF S10000x64 S64x64 S10000x64 [1] [0] [0] [1] [] []
  gather_S10000x64_S500000x1_S500000x64_1_0_n_n_0_1_164_wf : GatherDims.WF S10000x64 S500000x1 S500000x64 [1] [0] [] [0] [] 1 ![1, 64]
  dot_S500000x64_S64x32_S500000x32_1_0_0_1_n_n_wf : DotDims.WF S500000x64 S64x32 S500000x32 [1] [0] [0] [1] [] []
  dot_S500000x32_S32x1_S500000x1_1_0_0_1_n_n_wf : DotDims.WF S500000x32 S32x1 S500000x1 [1] [0] [0] [1] [] []

variable [Facts₀]

def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def gather_S200x64_S10000x1_S10000x64_1_0_n_n_0_1_164 : GatherDims S200x64 S10000x1 S10000x64 where
  offsetDims := [1]
  collapsedSliceDims := [0]
  operandBatchingDims := []
  startIndicesBatchingDims := []
  startIndexMap := [0]
  indexVectorDim := 1
  sliceSizes := ![1, 64]
  wf := gather_S200x64_S10000x1_S10000x64_1_0_n_n_0_1_164_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S10000x64_S1000000x1_S1000000x64_1_0_0_1 : ScatterDims S10000x64 S1000000x1 S1000000x64 where
  updateWindowDims := [1]
  insertedWindowDims := [0]
  scatterDimsToOperandDims := [0]
  indexVectorDim := 1
  wf := scatter_S10000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf
def dot_S500000x32_S32x1_S500000x1_1_0_0_1_n_n : DotDims S500000x32 S32x1 S500000x1 where
  lhsContracting := [1]
  rhsContracting := [0]
  lhsNonContracting := [0]
  rhsNonContracting := [1]
  lhsBatch := []
  rhsBatch := []
  wf := dot_S500000x32_S32x1_S500000x1_1_0_0_1_n_n_wf

class Facts : Prop extends Facts₀ where

variable [Facts]
-- ==== Proof.KernelTerm.lean ====
/- The idealized kernel program's tensor values as pure functions of its arguments.

   Each definition below is one SSA value of @main, named by its MLIR number, and is the program's own
   operation applied to the earlier values and to the argument arrays: a reshape is the row-major
   recast `shapeCast`, a pallas_call's result is the payload its one store writes, and a host line is the
   PureOps function the program prints for it. Constants and their broadcasts are written in place. -/
import proofs.«173554_j72438918414564_2_alg».proof.Proof.Gen.KernelIdeal.Skeleton

set_option synthInstance.maxSize 4096

noncomputable section

namespace Cert.KernelIdeal.Hand

open Idealize.ShloMosaic Idealize.ShloMosaic.TcCoe Idealize.SL.Sem

variable {F : FTy → Type} [FloatOps F]
variable (m : (ℓ : Loc nD τ sig) → Buf (Elt F) ℓ) (c : Dev nD)

/-! ## The two projections `relu(x) · W + b` -/

/-- `%0`: the bias `%arg18` as one row. -/
def v0 : (⟨S1x64, .f32⟩ : BufTy).Contents (Elt F) :=
  fun i => shapeCast S1x64 (m ((c : Thread nD τ).loc main_arg18)) Gen.shapeCasts_S64_S1x64 i

/-- `%1`: the first projection, of `%arg8` by `%arg17` and the bias row `%0`. -/
def v1 : (⟨S10000x64, .f32⟩ : BufTy).Contents (Elt F) :=
  Gen.k0_pay1 (m ((c : Thread nD τ).loc main_arg8)) (m ((c : Thread nD τ).loc main_arg17)) (v0 m c)

/-- `%2`: the bias `%arg20` as one row. -/
def v2 : (⟨S1x64, .f32⟩ : BufTy).Contents (Elt F) :=
  fun i => shapeCast S1x64 (m ((c : Thread nD τ).loc main_arg20)) Gen.shapeCasts_S64_S1x64 i

/-- `%3`: the second projection, of `%arg10` by `%arg19` and the bias row `%2`. -/
def v3 : (⟨S1000x64, .f32⟩ : BufTy).Contents (Elt F) :=
  Gen.k1_pay1 (m ((c : Thread nD τ).loc main_arg10)) (m ((c : Thread nD τ).loc main_arg19)) (v2 m c)

/-! ## The index chains: a negative index counts from the end, then the table is read -/

/-- `%8`: `%arg3` with 200000 added where negative. -/
def v8 : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
    ((cmpi .slt : (⟨S1000000, .i32⟩ : BufTy).Contents (Elt F) → (⟨S1000000, .i32⟩ : BufTy).Contents (Elt F) → (⟨S1000000, .i1⟩ : BufTy).Contents (Elt F)) (m ((c : Thread nD τ).loc main_arg3)) ((broadcastInDim S1000000 ![] Gen.bcast_S_S1000000 : (⟨S_, .i32⟩ : BufTy).Contents (Elt F) → (⟨S1000000, .i32⟩ : BufTy).Contents (Elt F)) (constantI S_ 32 0#32)))
    ((addi : (⟨S1000000, .i32⟩ : BufTy).Contents (Elt F) → (⟨S1000000, .i32⟩ : BufTy).Contents (Elt F) → (⟨S1000000, .i32⟩ : BufTy).Contents (Elt F)) (m ((c : Thread nD τ).loc main_arg3)) ((broadcastInDim S1000000 ![] Gen.bcast_S_S1000000 : (⟨S_, .i32⟩ : BufTy).Contents (Elt F) → (⟨S1000000, .i32⟩ : BufTy).Contents (Elt F)) (constantI S_ 32 200000#32)))
    (m ((c : Thread nD τ).loc main_arg3))

/-- `%10`: `%arg0` read at `%8`. -/
def v10 : (⟨S1000000, .i32⟩ : BufTy).Contents (Elt F) :=
  ((fun x i => Host.gather gather_S200000_S1000000x1_S1000000_n_0_n_n_0_1_1 x i) : (⟨S200000, .i32⟩ : BufTy).Contents (Elt F) → (⟨S1000000x1, .i32⟩ : BufTy).Contents (Elt F) → (⟨S1000000, .i32⟩ : BufTy).Contents (Elt F))
    (m ((c : Thread nD τ).loc main_arg0))
    ((broadcastInDim S1000000x1 ![0] Gen.bcast_S1000000_S1000000x1_0 : (⟨S1000000, .i32⟩ : BufTy).Contents (Elt F) → (⟨S1000000x1, .i32⟩ : BufTy).Contents (Elt F)) (v8 m c))

/-- `%15`: `%arg5` with 100000 added where negative. -/
def v15 : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
    ((cmpi .slt : (⟨S1000000, .i32⟩ : BufTy).Contents (Elt F) → (⟨S1000000, .i32⟩ : BufTy).Contents (Elt F) → (⟨S1000000, .i1⟩ : BufTy).Contents (Elt F)) (m ((c : Thread nD τ).loc main_arg5)) ((broadcastInDim S1000000 ![] Gen.bcast_S_S1000000 : (⟨S_, .i32⟩ : BufTy).Contents (Elt F) → (⟨S1000000, .i32⟩ : BufTy).Contents (Elt F)) (constantI S_ 32 0#32)))
    ((addi : (⟨S1000000, .i32⟩ : BufTy).Contents (Elt F) → (⟨S1000000, .i32⟩ : BufTy).Contents (Elt F) → (⟨S1000000, .i32⟩ : BufTy).Contents (Elt F)) (m ((c : Thread nD τ).loc main_arg5)) ((broadcastInDim S1000000 ![] Gen.bcast_S_S1000000 : (⟨S_, .i32⟩ : BufTy).Contents (Elt F) → (⟨S1000000, .i32⟩ : BufTy).Contents (Elt F)) (constantI S_ 32 100000#32)))
    (m ((c : Thread nD τ).loc main_arg5))

/-- `%17`: `%arg2` read at `%15`. -/
def v17 : (⟨S1000000, .i32⟩ : BufTy).Contents (Elt F) :=
  ((fun x i => Host.gather gather_S100000_S1000000x1_S1000000_n_0_n_n_0_1_1 x i) : (⟨S100000, .i32⟩ : BufTy).Contents (Elt F) → (⟨S1000000x1, .i32⟩ : BufTy).Contents (Elt F) → (⟨S1000000, .i32⟩ : BufTy).Contents (Elt F))
    (m ((c : Thread nD τ).loc main_arg2))
    ((broadcastInDim S1000000x1 ![0] Gen.bcast_S1000000_S1000000x1_0 : (⟨S1000000, .i32⟩ : BufTy).Contents (Elt F) → (⟨S1000000x1, .i32⟩ : BufTy).Contents (Elt F)) (v15 m c))

/-- `%22`: `%10` with 10000 added where negative. -/
def v22 : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
    ((cmpi .slt : (⟨S1000000, .i32⟩ : BufTy).Contents (Elt F) → (⟨S1000000, .i32⟩ : BufTy).Contents (Elt F) → (⟨S1000000, .i1⟩ : BufTy).Contents (Elt F)) (v10 m c) ((broadcastInDim S1000000 ![] Gen.bcast_S_S1000000 : (⟨S_, .i32⟩ : BufTy).Contents (Elt F) → (⟨S1000000, .i32⟩ : BufTy).Contents (Elt F)) (constantI S_ 32 0#32)))
    ((addi : (⟨S1000000, .i32⟩ : BufTy).Contents (Elt F) → (⟨S1000000, .i32⟩ : BufTy).Contents (Elt F) → (⟨S1000000, .i32⟩ : BufTy).Contents (Elt F)) (v10 m c) ((broadcastInDim S1000000 ![] Gen.bcast_S_S1000000 : (⟨S_, .i32⟩ : BufTy).Contents (Elt F) → (⟨S1000000, .i32⟩ : BufTy).Contents (Elt F)) (constantI S_ 32 10000#32)))
    (v10 m c)

/-- `%24`: the rows of `%1` at `%22`. -/
def v24 : (⟨S1000000x64, .f32⟩ : BufTy).Contents (Elt F) :=
  ((fun x i => Host.gather gather_S10000x64_S1000000x1_S1000000x64_1_0_n_n_0_1_164 x i) : (⟨S10000x64, .f32⟩ : BufTy).Contents (Elt F) → (⟨S1000000x1, .i32⟩ : BufTy).Contents (Elt F) → (⟨S1000000x64, .f32⟩ : BufTy).Contents (Elt F))
    (v1 m c)
    ((broadcastInDim S1000000x1 ![0] Gen.bcast_S1000000_S1000000x1_0 : (⟨S1000000, .i32⟩ : BufTy).Contents (Elt F) → (⟨S1000000x1, .i32⟩ : BufTy).Contents (Elt F)) (v22 m c))

/-- `%29`: `%17` with 1000 added where negative. -/
def v29 : (⟨S1000000, .i32⟩ : BufTy).Contents (Elt F) :=
  (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
    ((cmpi .slt : (⟨S1000000, .i32⟩ : BufTy).Contents (Elt F) → (⟨S1000000, .i32⟩ : BufTy).Contents (Elt F) → (⟨S1000000, .i1⟩ : BufTy).Contents (Elt F)) (v17 m c) ((broadcastInDim S1000000 ![] Gen.bcast_S_S1000000 : (⟨S_, .i32⟩ : BufTy).Contents (Elt F) → (⟨S1000000, .i32⟩ : BufTy).Contents (Elt F)) (constantI S_ 32 0#32)))
    ((addi : (⟨S1000000, .i32⟩ : BufTy).Contents (Elt F) → (⟨S1000000, .i32⟩ : BufTy).Contents (Elt F) → (⟨S1000000, .i32⟩ : BufTy).Contents (Elt F)) (v17 m c) ((broadcastInDim S1000000 ![] Gen.bcast_S_S1000000 : (⟨S_, .i32⟩ : BufTy).Contents (Elt F) → (⟨S1000000, .i32⟩ : BufTy).Contents (Elt F)) (constantI S_ 32 1000#32)))
    (v17 m c)

/-- `%31`: the rows of `%3` at `%29`. -/
def v31 : (⟨S1000000x64, .f32⟩ : BufTy).Contents (Elt F) :=
  ((fun x i => Host.gather gather_S1000x64_S1000000x1_S1000000x64_1_0_n_n_0_1_164 x i) : (⟨S1000x64, .f32⟩ : BufTy).Contents (Elt F) → (⟨S1000000x1, .i32⟩ : BufTy).Contents (Elt F) → (⟨S1000000x64, .f32⟩ : BufTy).Contents (Elt F))
    (v3 m c)
    ((broadcastInDim S1000000x1 ![0] Gen.bcast_S1000000_S1000000x1_0 : (⟨S1000000, .i32⟩ : BufTy).Contents (Elt F) → (⟨S1000000x1, .i32⟩ : BufTy).Contents (Elt F)) (v29 m c))

/-! ## The two segment sums and their mean -/

/-- `%34`: the rows `%24` added into a zero array at the rows `%arg4` names. -/
def v34 : (⟨S10000x64, .f32⟩ : BufTy).Contents (Elt F) :=
  ((fun x i u => Host.scatterAdd scatter_S10000x64_S1000000x1_S1000000x64_1_0_0_1 x i u) : (⟨S10000x64, .f32⟩ : BufTy).Contents (Elt F) → (⟨S1000000x1, .i32⟩ : BufTy).Contents (Elt F) → (⟨S1000000x64, .f32⟩ : BufTy).Contents (Elt F) → (⟨S10000x64, .f32⟩ : BufTy).Contents (Elt F))
    ((broadcastInDim S10000x64 ![] Gen.bcast_S_S10000x64 : (⟨S_, .f32⟩ : BufTy).Contents (Elt F) → (⟨S10000x64, .f32⟩ : BufTy).Contents (Elt F)) (constant S_ .f32 0x00000000#32))
    ((broadcastInDim S1000000x1 ![0] Gen.bcast_S1000000_S1000000x1_0 : (⟨S1000000, .i32⟩ : BufTy).Contents (Elt F) → (⟨S1000000x1, .i32⟩ : BufTy).Contents (Elt F)) (m ((c : Thread nD τ).loc main_arg4)))
    (v24 m c)

/-- `%37`: the rows `%31` added into a zero array at the rows `%arg6` names. -/
def v37 : (⟨S10000x64, .f32⟩ : BufTy).Contents (Elt F) :=
  ((fun x i u => Host.scatterAdd scatter_S10000x64_S1000000x1_S1000000x64_1_0_0_1 x i u) : (⟨S10000x64, .f32⟩ : BufTy).Contents (Elt F) → (⟨S1000000x1, .i32⟩ : BufTy).Contents (Elt F) → (⟨S1000000x64, .f32⟩ : BufTy).Contents (Elt F) → (⟨S10000x64, .f32⟩ : BufTy).Contents (Elt F))
    ((broadcastInDim S10000x64 ![] Gen.bcast_S_S10000x64 : (⟨S_, .f32⟩ : BufTy).Contents (Elt F) → (⟨S10000x64, .f32⟩ : BufTy).Contents (Elt F)) (constant S_ .f32 0x00000000#32))
    ((broadcastInDim S1000000x1 ![0] Gen.bcast_S1000000_S1000000x1_0 : (⟨S1000000, .i32⟩ : BufTy).Contents (Elt F) → (⟨S1000000x1, .i32⟩ : BufTy).Contents (Elt F)) (m ((c : Thread nD τ).loc main_arg6)))
    (v31 m c)

/-- `%40`: half the sum of the two. -/
def v40 : (⟨S10000x64, .f32⟩ : BufTy).Contents (Elt F) :=
  (mulf : (⟨S10000x64, .f32⟩ : BufTy).Contents (Elt F) → (⟨S10000x64, .f32⟩ : BufTy).Contents (Elt F) → (⟨S10000x64, .f32⟩ : BufTy).Contents (Elt F))
    ((broadcastInDim S10000x64 ![] Gen.bcast_S_S10000x64 : (⟨S_, .f32⟩ : BufTy).Contents (Elt F) → (⟨S10000x64, .f32⟩ : BufTy).Contents (Elt F)) (constant S_ .f32 0x3F000000#32))
    ((addf : (⟨S10000x64, .f32⟩ : BufTy).Contents (Elt F) → (⟨S10000x64, .f32⟩ : BufTy).Contents (Elt F) → (⟨S10000x64, .f32⟩ : BufTy).Contents (Elt F)) (v34 m c) (v37 m c))

/-! ## The update network and the final read -/

/-- `%41`: the bias `%arg22` as one row. -/
def v41 : (⟨S1x64, .f32⟩ : BufTy).Contents (Elt F) :=
  fun i => shapeCast S1x64 (m ((c : Thread nD τ).loc main_arg22)) Gen.shapeCasts_S64_S1x64 i

/-- `%42`: the bias `%arg24` as one row. -/
def v42 : (⟨S1x32, .f32⟩ : BufTy).Contents (Elt F) :=
  fun i => shapeCast S1x32 (m ((c : Thread nD τ).loc main_arg24)) Gen.shapeCasts_S32_S1x32 i

/-- `%43`: the bias `%arg26` as one row. -/
def v43 : (⟨S1x1, .f32⟩ : BufTy).Contents (Elt F) :=
  fun i => shapeCast S1x1 (m ((c : Thread nD τ).loc main_arg26)) Gen.shapeCasts_S1_S1x1 i

/-- `%44`: the update network's output column, from `%40` and its three layers' weights and bias rows. -/
def v44 : (⟨S10000x1, .f32⟩ : BufTy).Contents (Elt F) :=
  Gen.k2_pay1 (v40 m c) (m ((c : Thread nD τ).loc main_arg21)) (v41 m c) (m ((c : Thread nD τ).loc main_arg23)) (v42 m c) (m ((c : Thread nD τ).loc main_arg25)) (v43 m c)

/-- `%49`: `%arg7` with 10000 added where negative. -/
def v49 : (⟨S500000, .i32⟩ : BufTy).Contents (Elt F) :=
  (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
    ((cmpi .slt : (⟨S500000, .i32⟩ : BufTy).Contents (Elt F) → (⟨S500000, .i32⟩ : BufTy).Contents (Elt F) → (⟨S500000, .i1⟩ : BufTy).Contents (Elt F)) (m ((c : Thread nD τ).loc main_arg7)) ((broadcastInDim S500000 ![] Gen.bcast_S_S500000 : (⟨S_, .i32⟩ : BufTy).Contents (Elt F) → (⟨S500000, .i32⟩ : BufTy).Contents (Elt F)) (constantI S_ 32 0#32)))
    ((addi : (⟨S500000, .i32⟩ : BufTy).Contents (Elt F) → (⟨S500000, .i32⟩ : BufTy).Contents (Elt F) → (⟨S500000, .i32⟩ : BufTy).Contents (Elt F)) (m ((c : Thread nD τ).loc main_arg7)) ((broadcastInDim S500000 ![] Gen.bcast_S_S500000 : (⟨S_, .i32⟩ : BufTy).Contents (Elt F) → (⟨S500000, .i32⟩ : BufTy).Contents (Elt F)) (constantI S_ 32 10000#32)))
    (m ((c : Thread nD τ).loc main_arg7))

/-- `%51`: the rows of `%44` at `%49`. -/
def v51 : (⟨S500000x1, .f32⟩ : BufTy).Contents (Elt F) :=
  ((fun x i => Host.gather gather_S10000x1_S500000x1_S500000x1_1_0_n_n_0_1_11 x i) : (⟨S10000x1, .f32⟩ : BufTy).Contents (Elt F) → (⟨S500000x1, .i32⟩ : BufTy).Contents (Elt F) → (⟨S500000x1, .f32⟩ : BufTy).Contents (Elt F))
    (v44 m c)
    ((broadcastInDim S500000x1 ![0] Gen.bcast_S500000_S500000x1_0 : (⟨S500000, .i32⟩ : BufTy).Contents (Elt F) → (⟨S500000x1, .i32⟩ : BufTy).Contents (Elt F)) (v49 m c))

/-- `%52`, the program's result: `%51` as a vector. -/
def v52 : Buf (Elt F) ((c : Thread nD τ).loc main_v52) :=
  fun i => shapeCast S500000 (v51 m c) Gen.shapeCasts_S500000x1_S500000 i

end Cert.KernelIdeal.Hand

end
-- ==== Proof.KernelRun.lean ====
/- The idealized kernel program's run, read at every unscoped buffer.

   @main is seven segments — four stretches of host operations and three pallas_calls between them — and the
   buffer contents at the segment boundaries are a fold from the launch memory (the frame module's `GenP.W0 … GenP.W7`).
   One launch over the segments gives: every weakly fair execution terminates, and in every final state each
   unscoped buffer of each core holds what the fold ends at, `GenP.W7`. -/
import proofs.«173554_j72438918414564_2_alg».proof.Proof.FrameKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state has each unscoped buffer of each core at the last boundary's contents: the
    launch over the frame module's segments, the last thread state read against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = GenP.W7 m ρ c b) :=
  Pipeline.θ_run_regions_kit (pcfgs (F := F)) GenP.adm (GenP.pdats m ρ) () GenP.cellOf_inj emb₁ defs₀ GenP.𝒱₀ GenP.L GenP.lv m ρ main (GenP.segs m ρ)
    (fun c Q => by rw [GenP.main_run m ρ c])
    (by simp only [GenP.segs, Pipeline.Seg.pipes_host, Pipeline.Seg.pipes_region, Pipeline.Seg.pipes_nil]; decide)
    (O₀ := 0) (hL := fun _ _ => rfl) (G := fun _ => iprop(emp))
    (u₀ := initOf (Pipeline.cells cfgs GenP.cellOf_inj) (Pipeline.launchToks cfgs GenP.cellOf_inj))
    (hu₀ := by
      iintro Hu; imodintro
      isplitl [Hu]
      · iapply (show (ownU (initOf (Pipeline.cells cfgs GenP.cellOf_inj) (Pipeline.launchToks cfgs GenP.cellOf_inj)) : sProp 𝕄)
            ⊢ BI.own (emb₁ (initOf (Pipeline.cells cfgs GenP.cellOf_inj) (Pipeline.launchToks cfgs GenP.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.W0 m ρ c) ∗ GenP.R c)) (Tₙ := GenP.Tₙ m ρ)
    (hch := ⟨fun _ => .rfl, fun _ => .rfl, fun _ => .rfl, fun _ => .rfl, fun _ => .rfl, fun _ => .rfl, fun _ => .rfl, fun c => by
      dsimp only [Pipeline.Seg.post, GenP.hseg, Pipeline.HostSeg.ofOps]
      iintro ⟨Hh, Hp, HO⟩
      isplitl [Hh Hp]
      · isplitl [Hh]; · iexact Hh
        iexact Hp
      iexact HO⟩)
    (hinit := by
      refine Pipeline.initEach GenP.L GenP.lv fun c => ?_
      rw [show unscopedBufs c (fun b => m ((c : Thread nD τ).loc b)) = StableHlo.held (c : Thread nD τ) (Pipeline.ucRefs τ sig) (GenP.W0 m ρ c)
        from Pipeline.unscopedBufs_held c (GenP.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = GenP.W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (GenP.W7 m ρ c) s')
      isplitl [Hh] <;> iassumption)
    (hQ := fun _ h => h)

end Cert.KernelIdeal.Hand

end
-- ==== Proof.RegionArrays.lean ====
/-
  The three kernel regions of the idealized kernel's @main, each read as ONE function of whole arrays.

  Every region runs on a grid of a single point, and every window's block is its whole array (all the index maps are
  the constant zero). So a window's block, read off the region-entry contents, is the array itself; the one store of
  the body covers the output's whole staging buffer; and the single write-back overwrites the whole output array.
  Hence after the region the output window's array is the body's payload applied to the input windows' arrays as
  the region found them, and every input window's array is as the region found it.
-/
import proofs.«173554_j72438918414564_2_alg».proof.Proof.FrameKI
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal

variable {F : FTy → Type} [FloatOps F]
variable (V : (c : Dev nD) → (b : Ref sig .tc) → Buf (Elt F) ((c : Thread nD τ).loc b))

/-- The zero offsets of a rank-2 access, as the constant function. -/
theorem zeros2 : (![0, 0] : Fin 2 → Nat) = fun _ => 0 := funext fun a => by fin_cases a <;> rfl

/-! ## Region 0 -/

/-- Every window's index map of region 0 is the constant zero, at every point of the grid (decided over the grid's
    one point). -/
theorem index0_zero : ∀ t : Fin cfg0.N, win0_0.index t = (fun _ => 0)
    ∧ win0_1.index t = (fun _ => 0)
    ∧ win0_2.index t = (fun _ => 0)
    ∧ win0_3.index t = (fun _ => 0) :=
  (by decide +kernel : ∀ t : Fin grid0.N, _)

/-- Window 0's block is its whole array: contents `X` of the array, read through the block, are `X`. -/
theorem read_blk0_0 (t : Fin cfg0.N) (X : Vec F S10000x64 .f32) :
    ((cfg0.win 0).blk t).view.read (Elt F) X = X := by
  have hz : (fun a => win0_0.index t a * main_arg8.ty.shape.size a) = fun _ => 0 :=
    funext fun a => by rw [congrFun (index0_zero t).1 a]; exact Nat.zero_mul _
  exact Memref.read_access_unit_zero (Elt F) main_arg8 hz (fun a => by rw [congrFun hz a]; simp) X

/-- Window 1's block is its whole array: contents `X` of the array, read through the block, are `X`. -/
theorem read_blk0_1 (t : Fin cfg0.N) (X : Vec F S64x64 .f32) :
    ((cfg0.win 1).blk t).view.read (Elt F) X = X := by
  have hz : (fun a => win0_1.index t a * main_arg17.ty.shape.size a) = fun _ => 0 :=
    funext fun a => by rw [congrFun (index0_zero t).2.1 a]; exact Nat.zero_mul _
  exact Memref.read_access_unit_zero (Elt F) main_arg17 hz (fun a => by rw [congrFun hz a]; simp) X

/-- Window 2's block is its whole array: contents `X` of the array, read through the block, are `X`. -/
theorem read_blk0_2 (t : Fin cfg0.N) (X : Vec F S1x64 .f32) :
    ((cfg0.win 2).blk t).view.read (Elt F) X = X := by
  have hz : (fun a => win0_2.index t a * main_v0.ty.shape.size a) = fun _ => 0 :=
    funext fun a => by rw [congrFun (index0_zero t).2.2.1 a]; exact Nat.zero_mul _
  exact Memref.read_access_unit_zero (Elt F) main_v0 hz (fun a => by rw [congrFun hz a]; simp) X

/-- Window 3's block is its whole array: contents `X` of the array, read through the block, are `X`. -/
theorem read_blk0_3 (t : Fin cfg0.N) (X : Vec F S10000x64 .f32) :
    ((cfg0.win 3).blk t).view.read (Elt F) X = X := by
  have hz : (fun a => win0_3.index t a * main_v1.ty.shape.size a) = fun _ => 0 :=
    funext fun a => by rw [congrFun (index0_zero t).2.2.2 a]; exact Nat.zero_mul _
  exact Memref.read_access_unit_zero (Elt F) main_v1 hz (fun a => by rw [congrFun hz a]; simp) X

/-- Input window 0's block at a point, read off the region-entry contents, is the whole array. -/
theorem iblk0_0 (c : Dev nD) (t : Fin cfg0.N) :
    (GenP.iblk0 V c 0 t : Vec F S10000x64 .f32) = V c (Pipeline.arrRef spec0 0) :=
  read_blk0_0 t _

/-- Input window 1's block at a point, read off the region-entry contents, is the whole array. -/
theorem iblk0_1 (c : Dev nD) (t : Fin cfg0.N) :
    (GenP.iblk0 V c 1 t : Vec F S64x64 .f32) = V c (Pipeline.arrRef spec0 1) :=
  read_blk0_1 t _

/-- Input window 2's block at a point, read off the region-entry contents, is the whole array. -/
theorem iblk0_2 (c : Dev nD) (t : Fin cfg0.N) :
    (GenP.iblk0 V c 2 t : Vec F S1x64 .f32) = V c (Pipeline.arrRef spec0 2) :=
  read_blk0_2 t _

/-- The body's one store covers the output's staging buffer and each load reads a whole buffer: what the body leaves
    there is the payload of the input buffers' contents. -/
theorem out0_3_eq (x0 : Vec F S10000x64 .f32) (x1 : Vec F S64x64 .f32) (x2 : Vec F S1x64 .f32) :
    GenP.out0_3 x0 x1 x2 = Gen.k0_pay1 x0 x1 x2 := by
  unfold GenP.out0_3
  rw [View.canon_unit_zero zeros2]
  simp only [View.ld_unit_zero (S := S10000x64) zeros2, View.ld_unit_zero (S := S64x64) zeros2, View.ld_unit_zero (S := S1x64) zeros2]

/-- The payload respects equality of its operands. -/
theorem pay0_congr {x0 x1 x2 y0 y1 y2 : _} (h0 : (x0 : Vec F S10000x64 .f32) = y0) (h1 : (x1 : Vec F S64x64 .f32) = y1) (h2 : (x2 : Vec F S1x64 .f32) = y2) :
    Gen.k0_pay1 x0 x1 x2 = Gen.k0_pay1 y0 y1 y2 := by
  subst h0 h1 h2; rfl

/-- WHAT THE POINT WRITES BACK to the output window's array: the payload of the input windows' whole arrays, which is
    its own block. -/
theorem flushed0_3 (c : Dev nD) (t : Fin cfg0.N) :
    (GenP.dat0 V c).flushed 3 t
      = ((cfg0.win 3).blk t).view.read (Elt F) (Gen.k0_pay1 (V c (Pipeline.arrRef spec0 0)) (V c (Pipeline.arrRef spec0 1)) (V c (Pipeline.arrRef spec0 2))) := by
  refine Eq.trans ?_ (read_blk0_3 t _).symm
  show ((GenP.dat0 V c).after 3 t : Vec F S10000x64 .f32) = _
  exact ((GenP.after0_3 V c t).trans (out0_3_eq _ _ _)).trans
    (pay0_congr (iblk0_0 V c t) (iblk0_1 V c t) (iblk0_2 V c t))

/-- The one point's block covers the output array. -/
theorem cover0_3 (i : S10000x64.Idx) :
    ∃ t : Fin cfg0.N, (cfg0.win 3).flush t = true ∧ i ∈ ((cfg0.win 3).blk t).view.set := by
  refine ⟨GenP.t0_0, Gen.flush0_3 _, ?_⟩
  have hz : (fun a => win0_3.index GenP.t0_0 a * S10000x64.size a) = fun _ => 0 :=
    funext fun a => by rw [congrFun (index0_zero GenP.t0_0).2.2.2 a]; exact Nat.zero_mul _
  show i ∈ ((View.whole main_v1).slice (win0_3.rect GenP.t0_0)).set
  rw [View.set_slice_whole]
  exact View.mem_set_unit_zero (S := S10000x64) hz _ i

/-- REGION 0, READ: after it the output window's array is the payload of the input windows' arrays at region entry. -/
theorem arr0 (c : Dev nD) : (GenP.dat0 V c).arrAt 3 cfg0.N
    = Gen.k0_pay1 (V c (Pipeline.arrRef spec0 0)) (V c (Pipeline.arrRef spec0 1)) (V c (Pipeline.arrRef spec0 2)) :=
  (GenP.dat0 V c).arrAt_eq_of_cover 3 _ (fun t _ => flushed0_3 V c t) cover0_3

/-- An input window of region 0 is never written back: its array stays as the region found it. -/
theorem arr0_in (c : Dev nD) (w : Fin cfg0.W) (hw : (cfg0.win w).isOut = false) :
    (GenP.dat0 V c).arrAt w cfg0.N = V c (Pipeline.arrRef spec0 w) :=
  ((GenP.dat0 V c).arrAt_in w hw _).trans (GenP.A_eq0 V c w)

/-! ## Region 1 -/

/-- Every window's index map of region 1 is the constant zero, at every point of the grid (decided over the grid's
    one point). -/
theorem index1_zero : ∀ t : Fin cfg1.N, win1_0.index t = (fun _ => 0)
    ∧ win1_1.index t = (fun _ => 0)
    ∧ win1_2.index t = (fun _ => 0)
    ∧ win1_3.index t = (fun _ => 0) :=
  (by decide +kernel : ∀ t : Fin grid1.N, _)

/-- Window 0's block is its whole array: contents `X` of the array, read through the block, are `X`. -/
theorem read_blk1_0 (t : Fin cfg1.N) (X : Vec F S1000x64 .f32) :
    ((cfg1.win 0).blk t).view.read (Elt F) X = X := by
  have hz : (fun a => win1_0.index t a * main_arg10.ty.shape.size a) = fun _ => 0 :=
    funext fun a => by rw [congrFun (index1_zero t).1 a]; exact Nat.zero_mul _
  exact Memref.read_access_unit_zero (Elt F) main_arg10 hz (fun a => by rw [congrFun hz a]; simp) X

/-- Window 1's block is its whole array: contents `X` of the array, read through the block, are `X`. -/
theorem read_blk1_1 (t : Fin cfg1.N) (X : Vec F S64x64 .f32) :
    ((cfg1.win 1).blk t).view.read (Elt F) X = X := by
  have hz : (fun a => win1_1.index t a * main_arg19.ty.shape.size a) = fun _ => 0 :=
    funext fun a => by rw [congrFun (index1_zero t).2.1 a]; exact Nat.zero_mul _
  exact Memref.read_access_unit_zero (Elt F) main_arg19 hz (fun a => by rw [congrFun hz a]; simp) X

/-- Window 2's block is its whole array: contents `X` of the array, read through the block, are `X`. -/
theorem read_blk1_2 (t : Fin cfg1.N) (X : Vec F S1x64 .f32) :
    ((cfg1.win 2).blk t).view.read (Elt F) X = X := by
  have hz : (fun a => win1_2.index t a * main_v2.ty.shape.size a) = fun _ => 0 :=
    funext fun a => by rw [congrFun (index1_zero t).2.2.1 a]; exact Nat.zero_mul _
  exact Memref.read_access_unit_zero (Elt F) main_v2 hz (fun a => by rw [congrFun hz a]; simp) X

/-- Window 3's block is its whole array: contents `X` of the array, read through the block, are `X`. -/
theorem read_blk1_3 (t : Fin cfg1.N) (X : Vec F S1000x64 .f32) :
    ((cfg1.win 3).blk t).view.read (Elt F) X = X := by
  have hz : (fun a => win1_3.index t a * main_v3.ty.shape.size a) = fun _ => 0 :=
    funext fun a => by rw [congrFun (index1_zero t).2.2.2 a]; exact Nat.zero_mul _
  exact Memref.read_access_unit_zero (Elt F) main_v3 hz (fun a => by rw [congrFun hz a]; simp) X

/-- Input window 0's block at a point, read off the region-entry contents, is the whole array. -/
theorem iblk1_0 (c : Dev nD) (t : Fin cfg1.N) :
    (GenP.iblk1 V c 0 t : Vec F S1000x64 .f32) = V c (Pipeline.arrRef spec1 0) :=
  read_blk1_0 t _

/-- Input window 1's block at a point, read off the region-entry contents, is the whole array. -/
theorem iblk1_1 (c : Dev nD) (t : Fin cfg1.N) :
    (GenP.iblk1 V c 1 t : Vec F S64x64 .f32) = V c (Pipeline.arrRef spec1 1) :=
  read_blk1_1 t _

/-- Input window 2's block at a point, read off the region-entry contents, is the whole array. -/
theorem iblk1_2 (c : Dev nD) (t : Fin cfg1.N) :
    (GenP.iblk1 V c 2 t : Vec F S1x64 .f32) = V c (Pipeline.arrRef spec1 2) :=
  read_blk1_2 t _

/-- The body's one store covers the output's staging buffer and each load reads a whole buffer: what the body leaves
    there is the payload of the input buffers' contents. -/
theorem out1_3_eq (x0 : Vec F S1000x64 .f32) (x1 : Vec F S64x64 .f32) (x2 : Vec F S1x64 .f32) :
    GenP.out1_3 x0 x1 x2 = Gen.k1_pay1 x0 x1 x2 := by
  unfold GenP.out1_3
  rw [View.canon_unit_zero zeros2]
  simp only [View.ld_unit_zero (S := S1000x64) zeros2, View.ld_unit_zero (S := S64x64) zeros2, View.ld_unit_zero (S := S1x64) zeros2]

/-- The payload respects equality of its operands. -/
theorem pay1_congr {x0 x1 x2 y0 y1 y2 : _} (h0 : (x0 : Vec F S1000x64 .f32) = y0) (h1 : (x1 : Vec F S64x64 .f32) = y1) (h2 : (x2 : Vec F S1x64 .f32) = y2) :
    Gen.k1_pay1 x0 x1 x2 = Gen.k1_pay1 y0 y1 y2 := by
  subst h0 h1 h2; rfl

/-- WHAT THE POINT WRITES BACK to the output window's array: the payload of the input windows' whole arrays, which is
    its own block. -/
theorem flushed1_3 (c : Dev nD) (t : Fin cfg1.N) :
    (GenP.dat1 V c).flushed 3 t
      = ((cfg1.win 3).blk t).view.read (Elt F) (Gen.k1_pay1 (V c (Pipeline.arrRef spec1 0)) (V c (Pipeline.arrRef spec1 1)) (V c (Pipeline.arrRef spec1 2))) := by
  refine Eq.trans ?_ (read_blk1_3 t _).symm
  show ((GenP.dat1 V c).after 3 t : Vec F S1000x64 .f32) = _
  exact ((GenP.after1_3 V c t).trans (out1_3_eq _ _ _)).trans
    (pay1_congr (iblk1_0 V c t) (iblk1_1 V c t) (iblk1_2 V c t))

/-- The one point's block covers the output array. -/
theorem cover1_3 (i : S1000x64.Idx) :
    ∃ t : Fin cfg1.N, (cfg1.win 3).flush t = true ∧ i ∈ ((cfg1.win 3).blk t).view.set := by
  refine ⟨GenP.t1_0, Gen.flush1_3 _, ?_⟩
  have hz : (fun a => win1_3.index GenP.t1_0 a * S1000x64.size a) = fun _ => 0 :=
    funext fun a => by rw [congrFun (index1_zero GenP.t1_0).2.2.2 a]; exact Nat.zero_mul _
  show i ∈ ((View.whole main_v3).slice (win1_3.rect GenP.t1_0)).set
  rw [View.set_slice_whole]
  exact View.mem_set_unit_zero (S := S1000x64) hz _ i

/-- REGION 1, READ: after it the output window's array is the payload of the input windows' arrays at region entry. -/
theorem arr1 (c : Dev nD) : (GenP.dat1 V c).arrAt 3 cfg1.N
    = Gen.k1_pay1 (V c (Pipeline.arrRef spec1 0)) (V c (Pipeline.arrRef spec1 1)) (V c (Pipeline.arrRef spec1 2)) :=
  (GenP.dat1 V c).arrAt_eq_of_cover 3 _ (fun t _ => flushed1_3 V c t) cover1_3

/-- An input window of region 1 is never written back: its array stays as the region found it. -/
theorem arr1_in (c : Dev nD) (w : Fin cfg1.W) (hw : (cfg1.win w).isOut = false) :
    (GenP.dat1 V c).arrAt w cfg1.N = V c (Pipeline.arrRef spec1 w) :=
  ((GenP.dat1 V c).arrAt_in w hw _).trans (GenP.A_eq1 V c w)

/-! ## Region 2 -/

/-- Every window's index map of region 2 is the constant zero, at every point of the grid (decided over the grid's
    one point). -/
theorem index2_zero : ∀ t : Fin cfg2.N, win2_0.index t = (fun _ => 0)
    ∧ win2_1.index t = (fun _ => 0)
    ∧ win2_2.index t = (fun _ => 0)
    ∧ win2_3.index t = (fun _ => 0)
    ∧ win2_4.index t = (fun _ => 0)
    ∧ win2_5.index t = (fun _ => 0)
    ∧ win2_6.index t = (fun _ => 0)
    ∧ win2_7.index t = (fun _ => 0) :=
  (by decide +kernel : ∀ t : Fin grid2.N, _)

/-- Window 0's block is its whole array: contents `X` of the array, read through the block, are `X`. -/
theorem read_blk2_0 (t : Fin cfg2.N) (X : Vec F S10000x64 .f32) :
    ((cfg2.win 0).blk t).view.read (Elt F) X = X := by
  have hz : (fun a => win2_0.index t a * main_v40.ty.shape.size a) = fun _ => 0 :=
    funext fun a => by rw [congrFun (index2_zero t).1 a]; exact Nat.zero_mul _
  exact Memref.read_access_unit_zero (Elt F) main_v40 hz (fun a => by rw [congrFun hz a]; simp) X

/-- Window 1's block is its whole array: contents `X` of the array, read through the block, are `X`. -/
theorem read_blk2_1 (t : Fin cfg2.N) (X : Vec F S64x64 .f32) :
    ((cfg2.win 1).blk t).view.read (Elt F) X = X := by
  have hz : (fun a => win2_1.index t a * main_arg21.ty.shape.size a) = fun _ => 0 :=
    funext fun a => by rw [congrFun (index2_zero t).2.1 a]; exact Nat.zero_mul _
  exact Memref.read_access_unit_zero (Elt F) main_arg21 hz (fun a => by rw [congrFun hz a]; simp) X

/-- Window 2's block is its whole array: contents `X` of the array, read through the block, are `X`. -/
theorem read_blk2_2 (t : Fin cfg2.N) (X : Vec F S1x64 .f32) :
    ((cfg2.win 2).blk t).view.read (Elt F) X = X := by
  have hz : (fun a => win2_2.index t a * main_v41.ty.shape.size a) = fun _ => 0 :=
    funext fun a => by rw [congrFun (index2_zero t).2.2.1 a]; exact Nat.zero_mul _
  exact Memref.read_access_unit_zero (Elt F) main_v41 hz (fun a => by rw [congrFun hz a]; simp) X

/-- Window 3's block is its whole array: contents `X` of the array, read through the block, are `X`. -/
theorem read_blk2_3 (t : Fin cfg2.N) (X : Vec F S64x32 .f32) :
    ((cfg2.win 3).blk t).view.read (Elt F) X = X := by
  have hz : (fun a => win2_3.index t a * main_arg23.ty.shape.size a) = fun _ => 0 :=
    funext fun a => by rw [congrFun (index2_zero t).2.2.2.1 a]; exact Nat.zero_mul _
  exact Memref.read_access_unit_zero (Elt F) main_arg23 hz (fun a => by rw [congrFun hz a]; simp) X

/-- Window 4's block is its whole array: contents `X` of the array, read through the block, are `X`. -/
theorem read_blk2_4 (t : Fin cfg2.N) (X : Vec F S1x32 .f32) :
    ((cfg2.win 4).blk t).view.read (Elt F) X = X := by
  have hz : (fun a => win2_4.index t a * main_v42.ty.shape.size a) = fun _ => 0 :=
    funext fun a => by rw [congrFun (index2_zero t).2.2.2.2.1 a]; exact Nat.zero_mul _
  exact Memref.read_access_unit_zero (Elt F) main_v42 hz (fun a => by rw [congrFun hz a]; simp) X

/-- Window 5's block is its whole array: contents `X` of the array, read through the block, are `X`. -/
theorem read_blk2_5 (t : Fin cfg2.N) (X : Vec F S32x1 .f32) :
    ((cfg2.win 5).blk t).view.read (Elt F) X = X := by
  have hz : (fun a => win2_5.index t a * main_arg25.ty.shape.size a) = fun _ => 0 :=
    funext fun a => by rw [congrFun (index2_zero t).2.2.2.2.2.1 a]; exact Nat.zero_mul _
  exact Memref.read_access_unit_zero (Elt F) main_arg25 hz (fun a => by rw [congrFun hz a]; simp) X

/-- Window 6's block is its whole array: contents `X` of the array, read through the block, are `X`. -/
theorem read_blk2_6 (t : Fin cfg2.N) (X : Vec F S1x1 .f32) :
    ((cfg2.win 6).blk t).view.read (Elt F) X = X := by
  have hz : (fun a => win2_6.index t a * main_v43.ty.shape.size a) = fun _ => 0 :=
    funext fun a => by rw [congrFun (index2_zero t).2.2.2.2.2.2.1 a]; exact Nat.zero_mul _
  exact Memref.read_access_unit_zero (Elt F) main_v43 hz (fun a => by rw [congrFun hz a]; simp) X

/-- Window 7's block is its whole array: contents `X` of the array, read through the block, are `X`. -/
theorem read_blk2_7 (t : Fin cfg2.N) (X : Vec F S10000x1 .f32) :
    ((cfg2.win 7).blk t).view.read (Elt F) X = X := by
  have hz : (fun a => win2_7.index t a * main_v44.ty.shape.size a) = fun _ => 0 :=
    funext fun a => by rw [congrFun (index2_zero t).2.2.2.2.2.2.2 a]; exact Nat.zero_mul _
  exact Memref.read_access_unit_zero (Elt F) main_v44 hz (fun a => by rw [congrFun hz a]; simp) X

/-- Input window 0's block at a point, read off the region-entry contents, is the whole array. -/
theorem iblk2_0 (c : Dev nD) (t : Fin cfg2.N) :
    (GenP.iblk2 V c 0 t : Vec F S10000x64 .f32) = V c (Pipeline.arrRef spec2 0) :=
  read_blk2_0 t _

/-- Input window 1's block at a point, read off the region-entry contents, is the whole array. -/
theorem iblk2_1 (c : Dev nD) (t : Fin cfg2.N) :
    (GenP.iblk2 V c 1 t : Vec F S64x64 .f32) = V c (Pipeline.arrRef spec2 1) :=
  read_blk2_1 t _

/-- Input window 2's block at a point, read off the region-entry contents, is the whole array. -/
theorem iblk2_2 (c : Dev nD) (t : Fin cfg2.N) :
    (GenP.iblk2 V c 2 t : Vec F S1x64 .f32) = V c (Pipeline.arrRef spec2 2) :=
  read_blk2_2 t _

/-- Input window 3's block at a point, read off the region-entry contents, is the whole array. -/
theorem iblk2_3 (c : Dev nD) (t : Fin cfg2.N) :
    (GenP.iblk2 V c 3 t : Vec F S64x32 .f32) = V c (Pipeline.arrRef spec2 3) :=
  read_blk2_3 t _

/-- Input window 4's block at a point, read off the region-entry contents, is the whole array. -/
theorem iblk2_4 (c : Dev nD) (t : Fin cfg2.N) :
    (GenP.iblk2 V c 4 t : Vec F S1x32 .f32) = V c (Pipeline.arrRef spec2 4) :=
  read_blk2_4 t _

/-- Input window 5's block at a point, read off the region-entry contents, is the whole array. -/
theorem iblk2_5 (c : Dev nD) (t : Fin cfg2.N) :
    (GenP.iblk2 V c 5 t : Vec F S32x1 .f32) = V c (Pipeline.arrRef spec2 5) :=
  read_blk2_5 t _

/-- Input window 6's block at a point, read off the region-entry contents, is the whole array. -/
theorem iblk2_6 (c : Dev nD) (t : Fin cfg2.N) :
    (GenP.iblk2 V c 6 t : Vec F S1x1 .f32) = V c (Pipeline.arrRef spec2 6) :=
  read_blk2_6 t _

/-- The body's one store covers the output's staging buffer and each load reads a whole buffer: what the body leaves
    there is the payload of the input buffers' contents. -/
theorem out2_7_eq (x0 : Vec F S10000x64 .f32) (x1 : Vec F S64x64 .f32) (x2 : Vec F S1x64 .f32) (x3 : Vec F S64x32 .f32) (x4 : Vec F S1x32 .f32) (x5 : Vec F S32x1 .f32) (x6 : Vec F S1x1 .f32) :
    GenP.out2_7 x0 x1 x2 x3 x4 x5 x6 = Gen.k2_pay1 x0 x1 x2 x3 x4 x5 x6 := by
  unfold GenP.out2_7
  rw [View.canon_unit_zero zeros2]
  simp only [View.ld_unit_zero (S := S10000x64) zeros2, View.ld_unit_zero (S := S64x64) zeros2, View.ld_unit_zero (S := S1x64) zeros2, View.ld_unit_zero (S := S64x32) zeros2, View.ld_unit_zero (S := S1x32) zeros2, View.ld_unit_zero (S := S32x1) zeros2, View.ld_unit_zero (S := S1x1) zeros2]

/-- The payload respects equality of its operands. -/
theorem pay2_congr {x0 x1 x2 x3 x4 x5 x6 y0 y1 y2 y3 y4 y5 y6 : _} (h0 : (x0 : Vec F S10000x64 .f32) = y0) (h1 : (x1 : Vec F S64x64 .f32) = y1) (h2 : (x2 : Vec F S1x64 .f32) = y2) (h3 : (x3 : Vec F S64x32 .f32) = y3) (h4 : (x4 : Vec F S1x32 .f32) = y4) (h5 : (x5 : Vec F S32x1 .f32) = y5) (h6 : (x6 : Vec F S1x1 .f32) = y6) :
    Gen.k2_pay1 x0 x1 x2 x3 x4 x5 x6 = Gen.k2_pay1 y0 y1 y2 y3 y4 y5 y6 := by
  subst h0 h1 h2 h3 h4 h5 h6; rfl

/-- WHAT THE POINT WRITES BACK to the output window's array: the payload of the input windows' whole arrays, which is
    its own block. -/
theorem flushed2_7 (c : Dev nD) (t : Fin cfg2.N) :
    (GenP.dat2 V c).flushed 7 t
      = ((cfg2.win 7).blk t).view.read (Elt F) (Gen.k2_pay1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  refine Eq.trans ?_ (read_blk2_7 t _).symm
  show ((GenP.dat2 V c).after 7 t : Vec F S10000x1 .f32) = _
  exact ((GenP.after2_7 V c t).trans (out2_7_eq _ _ _ _ _ _ _)).trans
    (pay2_congr (iblk2_0 V c t) (iblk2_1 V c t) (iblk2_2 V c t) (iblk2_3 V c t) (iblk2_4 V c t) (iblk2_5 V c t) (iblk2_6 V c t))

/-- The one point's block covers the output array. -/
theorem cover2_7 (i : S10000x1.Idx) :
    ∃ t : Fin cfg2.N, (cfg2.win 7).flush t = true ∧ i ∈ ((cfg2.win 7).blk t).view.set := by
  refine ⟨GenP.t2_0, Gen.flush2_7 _, ?_⟩
  have hz : (fun a => win2_7.index GenP.t2_0 a * S10000x1.size a) = fun _ => 0 :=
    funext fun a => by rw [congrFun (index2_zero GenP.t2_0).2.2.2.2.2.2.2 a]; exact Nat.zero_mul _
  show i ∈ ((View.whole main_v44).slice (win2_7.rect GenP.t2_0)).set
  rw [View.set_slice_whole]
  exact View.mem_set_unit_zero (S := S10000x1) hz _ i

/-- REGION 2, READ: after it the output window's array is the payload of the input windows' arrays at region entry. -/
theorem arr2 (c : Dev nD) : (GenP.dat2 V c).arrAt 7 cfg2.N
    = Gen.k2_pay1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (GenP.dat2 V c).arrAt_eq_of_cover 7 _ (fun t _ => flushed2_7 V c t) cover2_7

/-- An input window of region 2 is never written back: its array stays as the region found it. -/
theorem arr2_in (c : Dev nD) (w : Fin cfg2.W) (hw : (cfg2.win w).isOut = false) :
    (GenP.dat2 V c).arrAt w cfg2.N = V c (Pipeline.arrRef spec2 w) :=
  ((GenP.dat2 V c).arrAt_in w hw _).trans (GenP.A_eq2 V c w)

end Cert.KernelIdeal.Hand

end
-- ==== Proof.KernelValue.lean ====
/- The idealized kernel program's result array as a pure function of its arguments.

   The buffer contents at @main's segment boundaries are a fold from the launch memory (`GenP.W0 … GenP.W7`): a
   stretch of host operations rewrites the buffers its operations write and leaves the rest, a pallas_call leaves
   its output array at what its pipeline writes back and every other buffer as entered. Walking the fold boundary
   by boundary — an argument array is never written, so it holds its launch contents throughout; a host operation's
   result is its function of its operands' contents; a pallas_call's output is its payload of its input arrays —
   the result buffer `%52` ends at `Hand.v52`, the term of KernelTerm.lean. With the run of KernelRun.lean this is
   the program's run in the shape the algebraic claim states it. -/
import proofs.«173554_j72438918414564_2_alg».proof.Proof.KernelTerm
import proofs.«173554_j72438918414564_2_alg».proof.Proof.KernelRun
import proofs.«173554_j72438918414564_2_alg».proof.Proof.RegionArrays

set_option maxRecDepth 16384

noncomputable section

namespace Cert.KernelIdeal.Hand

open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg) (c : Dev nD)

/-! ## What each stretch of host operations writes -/

/-- The buffers the four stretches write: each operation writes its one result. -/
abbrev hostOps0_W : List (Ref sig .tc) := [main_v0]
abbrev hostOps1_W : List (Ref sig .tc) := [main_v2]
abbrev hostOps2_W : List (Ref sig .tc) :=
  [main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31, main_cst, main_v32, main_v33, main_v34, main_cst_7, main_v35, main_v36, main_v37, main_v38, main_cst_8, main_v39, main_v40, main_v41, main_v42, main_v43]
abbrev hostOps3_W : List (Ref sig .tc) :=
  [main_c_9, main_v45, main_v46, main_c_10, main_v47, main_v48, main_v49, main_v50, main_v51, main_v52]

/-- Every operation of a literal list writes inside the list of its result buffers. -/
local macro "writes_sub" : tactic => `(tactic| (
  simp only [List.Forall]
  repeat' apply And.intro
  all_goals (
    simp only [StableHlo.nullary_writes, StableHlo.unary_writes, StableHlo.binary_writes, StableHlo.ternary_writes,
      StableHlo.reshape_writes, Finset.singleton_subset_iff, List.mem_toFinset]
    exact List.mem_map_of_mem (by decide))))

theorem hostOps0_writes : (GenP.hostOps0 : List (HloOp τ sig (Elt F))).Forall fun op =>
    op.writes ⊆ (hostOps0_W.map (Proc.devRef (τ := τ) .tc)).toFinset := by writes_sub
theorem hostOps1_writes : (GenP.hostOps1 : List (HloOp τ sig (Elt F))).Forall fun op =>
    op.writes ⊆ (hostOps1_W.map (Proc.devRef (τ := τ) .tc)).toFinset := by writes_sub
theorem hostOps2_writes : (GenP.hostOps2 : List (HloOp τ sig (Elt F))).Forall fun op =>
    op.writes ⊆ (hostOps2_W.map (Proc.devRef (τ := τ) .tc)).toFinset := by writes_sub
theorem hostOps3_writes : (GenP.hostOps3 : List (HloOp τ sig (Elt F))).Forall fun op =>
    op.writes ⊆ (hostOps3_W.map (Proc.devRef (τ := τ) .tc)).toFinset := by writes_sub

/-- A buffer a stretch does not write holds after it what it held before. -/
theorem W1_keep (r : Ref sig .tc) (h : r ∉ hostOps0_W) :
    GenP.W1 m ρ c (Proc.devRef .tc r) = GenP.W0 m ρ c (Proc.devRef .tc r) :=
  StableHlo.after_of_writes_sub GenP.hostOps0 _ hostOps0_writes h
theorem W3_keep (r : Ref sig .tc) (h : r ∉ hostOps1_W) :
    GenP.W3 m ρ c (Proc.devRef .tc r) = GenP.W2 m ρ c (Proc.devRef .tc r) :=
  StableHlo.after_of_writes_sub GenP.hostOps1 _ hostOps1_writes h
theorem W5_keep (r : Ref sig .tc) (h : r ∉ hostOps2_W) :
    GenP.W5 m ρ c (Proc.devRef .tc r) = GenP.W4 m ρ c (Proc.devRef .tc r) :=
  StableHlo.after_of_writes_sub GenP.hostOps2 _ hostOps2_writes h
theorem W7_keep (r : Ref sig .tc) (h : r ∉ hostOps3_W) :
    GenP.W7 m ρ c (Proc.devRef .tc r) = GenP.W6 m ρ c (Proc.devRef .tc r) :=
  StableHlo.after_of_writes_sub GenP.hostOps3 _ hostOps3_writes h

/-! ## The argument arrays hold their launch contents at every boundary they are read at -/

/-- The argument arrays read from the third stretch on: none is a window of the first two pallas_calls and no host
    operation writes one, so each holds its launch contents up to the third pallas_call's entry. -/
abbrev quiet : List (Ref sig .tc) :=
  [main_arg0, main_arg2, main_arg3, main_arg4, main_arg5, main_arg6, main_arg7, main_arg21, main_arg22, main_arg23, main_arg24, main_arg25, main_arg26]
/-- The argument arrays the second stretch and the second pallas_call read: not windows of the first pallas_call. -/
abbrev early : List (Ref sig .tc) := [main_arg10, main_arg19, main_arg20]

theorem W1_quiet : ∀ r ∈ quiet, GenP.W1 m ρ c (Proc.devRef .tc r) = m ((c : Thread nD τ).loc r) := fun r hr =>
  (W1_keep m ρ c r ((by decide : ∀ r ∈ quiet, r ∉ hostOps0_W) r hr)).trans rfl
theorem W2_quiet : ∀ r ∈ quiet, GenP.W2 m ρ c (Proc.devRef .tc r) = m ((c : Thread nD τ).loc r) := fun r hr =>
  (GenP.W2_of_ne m ρ c r ((by decide : ∀ r ∈ quiet, ∀ w, Pipeline.arrRef spec0 w ≠ r) r hr)).trans (W1_quiet m ρ c r hr)
theorem W3_quiet : ∀ r ∈ quiet, GenP.W3 m ρ c (Proc.devRef .tc r) = m ((c : Thread nD τ).loc r) := fun r hr =>
  (W3_keep m ρ c r ((by decide : ∀ r ∈ quiet, r ∉ hostOps1_W) r hr)).trans (W2_quiet m ρ c r hr)
theorem W4_quiet : ∀ r ∈ quiet, GenP.W4 m ρ c (Proc.devRef .tc r) = m ((c : Thread nD τ).loc r) := fun r hr =>
  (GenP.W4_of_ne m ρ c r ((by decide : ∀ r ∈ quiet, ∀ w, Pipeline.arrRef spec1 w ≠ r) r hr)).trans (W3_quiet m ρ c r hr)
theorem W5_quiet : ∀ r ∈ quiet, GenP.W5 m ρ c (Proc.devRef .tc r) = m ((c : Thread nD τ).loc r) := fun r hr =>
  (W5_keep m ρ c r ((by decide : ∀ r ∈ quiet, r ∉ hostOps2_W) r hr)).trans (W4_quiet m ρ c r hr)

theorem W1_early : ∀ r ∈ early, GenP.W1 m ρ c (Proc.devRef .tc r) = m ((c : Thread nD τ).loc r) := fun r hr =>
  (W1_keep m ρ c r ((by decide : ∀ r ∈ early, r ∉ hostOps0_W) r hr)).trans rfl
theorem W2_early : ∀ r ∈ early, GenP.W2 m ρ c (Proc.devRef .tc r) = m ((c : Thread nD τ).loc r) := fun r hr =>
  (GenP.W2_of_ne m ρ c r ((by decide : ∀ r ∈ early, ∀ w, Pipeline.arrRef spec0 w ≠ r) r hr)).trans (W1_early m ρ c r hr)
theorem W3_early : ∀ r ∈ early, GenP.W3 m ρ c (Proc.devRef .tc r) = m ((c : Thread nD τ).loc r) := fun r hr =>
  (W3_keep m ρ c r ((by decide : ∀ r ∈ early, r ∉ hostOps1_W) r hr)).trans (W2_early m ρ c r hr)

theorem W1_arg8 : GenP.W1 m ρ c (Proc.devRef .tc main_arg8) = m ((c : Thread nD τ).loc main_arg8) :=
  (W1_keep m ρ c main_arg8 (by decide)).trans rfl
theorem W1_arg17 : GenP.W1 m ρ c (Proc.devRef .tc main_arg17) = m ((c : Thread nD τ).loc main_arg17) :=
  (W1_keep m ρ c main_arg17 (by decide)).trans rfl
theorem W2_arg20 : GenP.W2 m ρ c (Proc.devRef .tc main_arg20) = m ((c : Thread nD τ).loc main_arg20) :=
  W2_early m ρ c main_arg20 (by decide)
theorem W3_arg10 : GenP.W3 m ρ c (Proc.devRef .tc main_arg10) = m ((c : Thread nD τ).loc main_arg10) :=
  W3_early m ρ c main_arg10 (by decide)
theorem W3_arg19 : GenP.W3 m ρ c (Proc.devRef .tc main_arg19) = m ((c : Thread nD τ).loc main_arg19) :=
  W3_early m ρ c main_arg19 (by decide)
theorem W4_arg0 : GenP.W4 m ρ c (Proc.devRef .tc main_arg0) = m ((c : Thread nD τ).loc main_arg0) :=
  W4_quiet m ρ c main_arg0 (by decide)
theorem W4_arg2 : GenP.W4 m ρ c (Proc.devRef .tc main_arg2) = m ((c : Thread nD τ).loc main_arg2) :=
  W4_quiet m ρ c main_arg2 (by decide)
theorem W4_arg3 : GenP.W4 m ρ c (Proc.devRef .tc main_arg3) = m ((c : Thread nD τ).loc main_arg3) :=
  W4_quiet m ρ c main_arg3 (by decide)
theorem W4_arg4 : GenP.W4 m ρ c (Proc.devRef .tc main_arg4) = m ((c : Thread nD τ).loc main_arg4) :=
  W4_quiet m ρ c main_arg4 (by decide)
theorem W4_arg5 : GenP.W4 m ρ c (Proc.devRef .tc main_arg5) = m ((c : Thread nD τ).loc main_arg5) :=
  W4_quiet m ρ c main_arg5 (by decide)
theorem W4_arg6 : GenP.W4 m ρ c (Proc.devRef .tc main_arg6) = m ((c : Thread nD τ).loc main_arg6) :=
  W4_quiet m ρ c main_arg6 (by decide)
theorem W4_arg22 : GenP.W4 m ρ c (Proc.devRef .tc main_arg22) = m ((c : Thread nD τ).loc main_arg22) :=
  W4_quiet m ρ c main_arg22 (by decide)
theorem W4_arg24 : GenP.W4 m ρ c (Proc.devRef .tc main_arg24) = m ((c : Thread nD τ).loc main_arg24) :=
  W4_quiet m ρ c main_arg24 (by decide)
theorem W4_arg26 : GenP.W4 m ρ c (Proc.devRef .tc main_arg26) = m ((c : Thread nD τ).loc main_arg26) :=
  W4_quiet m ρ c main_arg26 (by decide)
theorem W5_arg21 : GenP.W5 m ρ c (Proc.devRef .tc main_arg21) = m ((c : Thread nD τ).loc main_arg21) :=
  W5_quiet m ρ c main_arg21 (by decide)
theorem W5_arg23 : GenP.W5 m ρ c (Proc.devRef .tc main_arg23) = m ((c : Thread nD τ).loc main_arg23) :=
  W5_quiet m ρ c main_arg23 (by decide)
theorem W5_arg25 : GenP.W5 m ρ c (Proc.devRef .tc main_arg25) = m ((c : Thread nD τ).loc main_arg25) :=
  W5_quiet m ρ c main_arg25 (by decide)
theorem W6_arg7 : GenP.W6 m ρ c (Proc.devRef .tc main_arg7) = m ((c : Thread nD τ).loc main_arg7) :=
  (GenP.W6_of_ne m ρ c main_arg7 (by decide)).trans (W5_quiet m ρ c main_arg7 (by decide))

/-! ## The first projection: `%0`, then `%1` -/

/-- After the first stretch `%0` is the bias `%arg18` as a row. -/
theorem W1_v0 : GenP.W1 m ρ c (Proc.devRef .tc main_v0) = Hand.v0 m c := by
  show StableHlo.after GenP.hostOps0 (GenP.W0 m ρ c) (Proc.devRef .tc main_v0) = _
  after_results
  rfl

/-- The first pallas_call leaves in `%1` its payload of its three input arrays as entered. -/
theorem W2_v1 : GenP.W2 m ρ c (Proc.devRef .tc main_v1) = Hand.v1 m c := by
  refine ((GenP.W2_arr m ρ c 3).trans (Hand.arr0 (GenP.V1 m ρ) c)).trans ?_
  show Gen.k0_pay1 (GenP.W1 m ρ c (Proc.devRef .tc main_arg8)) (GenP.W1 m ρ c (Proc.devRef .tc main_arg17))
    (GenP.W1 m ρ c (Proc.devRef .tc main_v0)) = _
  rw [W1_arg8 m ρ c, W1_arg17 m ρ c, W1_v0 m ρ c]
  rfl

/-- Nothing writes `%1` again before the gather that reads it. -/
theorem W3_v1 : GenP.W3 m ρ c (Proc.devRef .tc main_v1) = Hand.v1 m c :=
  (W3_keep m ρ c main_v1 (by decide)).trans (W2_v1 m ρ c)
theorem W4_v1 : GenP.W4 m ρ c (Proc.devRef .tc main_v1) = Hand.v1 m c :=
  (GenP.W4_of_ne m ρ c main_v1 (by decide)).trans (W3_v1 m ρ c)

/-! ## The second projection: `%2`, then `%3` -/

theorem W3_v2 : GenP.W3 m ρ c (Proc.devRef .tc main_v2) = Hand.v2 m c := by
  show StableHlo.after GenP.hostOps1 (GenP.W2 m ρ c) (Proc.devRef .tc main_v2) = _
  after_results
  rw [W2_arg20 m ρ c]
  rfl

theorem W4_v3 : GenP.W4 m ρ c (Proc.devRef .tc main_v3) = Hand.v3 m c := by
  refine ((GenP.W4_arr m ρ c 3).trans (Hand.arr1 (GenP.V3 m ρ) c)).trans ?_
  show Gen.k1_pay1 (GenP.W3 m ρ c (Proc.devRef .tc main_arg10)) (GenP.W3 m ρ c (Proc.devRef .tc main_arg19))
    (GenP.W3 m ρ c (Proc.devRef .tc main_v2)) = _
  rw [W3_arg10 m ρ c, W3_arg19 m ρ c, W3_v2 m ρ c]
  rfl

/-! ## The long stretch: the index chains, the two gathers and segment sums, their mean, and the bias rows -/

-- each of the stretch's 51 results is its operation's function of its operands' contents, read back to the stretch's entry
set_option maxHeartbeats 4000000 in
theorem W5_v40 : GenP.W5 m ρ c (Proc.devRef .tc main_v40) = Hand.v40 m c := by
  show StableHlo.after GenP.hostOps2 (GenP.W4 m ρ c) (Proc.devRef .tc main_v40) = _
  after_results_simp
  rw [W4_arg0 m ρ c, W4_arg2 m ρ c, W4_arg3 m ρ c, W4_arg4 m ρ c, W4_arg5 m ρ c, W4_arg6 m ρ c, W4_v1 m ρ c, W4_v3 m ρ c]
  rfl

theorem W5_v41 : GenP.W5 m ρ c (Proc.devRef .tc main_v41) = Hand.v41 m c := by
  show StableHlo.after GenP.hostOps2 (GenP.W4 m ρ c) (Proc.devRef .tc main_v41) = _
  after_results_simp
  rw [W4_arg22 m ρ c]
  rfl
theorem W5_v42 : GenP.W5 m ρ c (Proc.devRef .tc main_v42) = Hand.v42 m c := by
  show StableHlo.after GenP.hostOps2 (GenP.W4 m ρ c) (Proc.devRef .tc main_v42) = _
  after_results_simp
  rw [W4_arg24 m ρ c]
  rfl
theorem W5_v43 : GenP.W5 m ρ c (Proc.devRef .tc main_v43) = Hand.v43 m c := by
  show StableHlo.after GenP.hostOps2 (GenP.W4 m ρ c) (Proc.devRef .tc main_v43) = _
  after_results_simp
  rw [W4_arg26 m ρ c]
  rfl

/-! ## The update network, and the final read -/

/-- The third pallas_call leaves in `%44` its payload of its seven input arrays as entered. -/
theorem W6_v44 : GenP.W6 m ρ c (Proc.devRef .tc main_v44) = Hand.v44 m c := by
  refine ((GenP.W6_arr m ρ c 7).trans (Hand.arr2 (GenP.V5 m ρ) c)).trans ?_
  show Gen.k2_pay1 (GenP.W5 m ρ c (Proc.devRef .tc main_v40)) (GenP.W5 m ρ c (Proc.devRef .tc main_arg21))
    (GenP.W5 m ρ c (Proc.devRef .tc main_v41)) (GenP.W5 m ρ c (Proc.devRef .tc main_arg23))
    (GenP.W5 m ρ c (Proc.devRef .tc main_v42)) (GenP.W5 m ρ c (Proc.devRef .tc main_arg25))
    (GenP.W5 m ρ c (Proc.devRef .tc main_v43)) = _
  rw [W5_v40 m ρ c, W5_arg21 m ρ c, W5_v41 m ρ c, W5_arg23 m ρ c, W5_v42 m ρ c, W5_arg25 m ρ c, W5_v43 m ρ c]
  rfl

/-- At the end the result buffer `%52` holds the term `Hand.v52` of the arguments. -/
theorem W7_v52 : GenP.W7 m ρ c (Proc.devRef .tc main_v52) = Hand.v52 m c := by
  show StableHlo.after GenP.hostOps3 (GenP.W6 m ρ c) (Proc.devRef .tc main_v52) = _
  after_results
  rw [W6_v44 m ρ c, W6_arg7 m ρ c]
  rfl

/-! ## The run, in the shape the algebraic claim states it -/

/-- From any memory with zero counters, every weakly fair execution of @main terminates, and in every final state
    the result buffer of each core holds `Hand.v52` of the launch contents and each argument array is as launched. -/
theorem kernel_run : θ_run defs (onTc (τ := τ) (main (F := F))) ⟨m, fun _ => 0, ρ⟩ (fun r => ∀ c : Dev nD,
      r.2.mem ((c.tc : Thread nD τ).loc main_v52) = Hand.v52 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (GenP.mem_uc main_v52 (by decide))).trans (W7_v52 m ρ c),
     (h c _ (GenP.mem_uc main_arg0 (by decide))).trans (GenP.W7_main_arg0 m ρ c),
     (h c _ (GenP.mem_uc main_arg1 (by decide))).trans (GenP.W7_main_arg1 m ρ c),
     (h c _ (GenP.mem_uc main_arg2 (by decide))).trans (GenP.W7_main_arg2 m ρ c),
     (h c _ (GenP.mem_uc main_arg3 (by decide))).trans (GenP.W7_main_arg3 m ρ c),
     (h c _ (GenP.mem_uc main_arg4 (by decide))).trans (GenP.W7_main_arg4 m ρ c),
     (h c _ (GenP.mem_uc main_arg5 (by decide))).trans (GenP.W7_main_arg5 m ρ c),
     (h c _ (GenP.mem_uc main_arg6 (by decide))).trans (GenP.W7_main_arg6 m ρ c),
     (h c _ (GenP.mem_uc main_arg7 (by decide))).trans (GenP.W7_main_arg7 m ρ c),
     (h c _ (GenP.mem_uc main_arg8 (by decide))).trans (GenP.W7_main_arg8 m ρ c),
     (h c _ (GenP.mem_uc main_arg9 (by decide))).trans (GenP.W7_main_arg9 m ρ c),
     (h c _ (GenP.mem_uc main_arg10 (by decide))).trans (GenP.W7_main_arg10 m ρ c),
     (h c _ (GenP.mem_uc main_arg11 (by decide))).trans (GenP.W7_main_arg11 m ρ c),
     (h c _ (GenP.mem_uc main_arg12 (by decide))).trans (GenP.W7_main_arg12 m ρ c),
     (h c _ (GenP.mem_uc main_arg13 (by decide))).trans (GenP.W7_main_arg13 m ρ c),
     (h c _ (GenP.mem_uc main_arg14 (by decide))).trans (GenP.W7_main_arg14 m ρ c),
     (h c _ (GenP.mem_uc main_arg15 (by decide))).trans (GenP.W7_main_arg15 m ρ c),
     (h c _ (GenP.mem_uc main_arg16 (by decide))).trans (GenP.W7_main_arg16 m ρ c),
     (h c _ (GenP.mem_uc main_arg17 (by decide))).trans (GenP.W7_main_arg17 m ρ c),
     (h c _ (GenP.mem_uc main_arg18 (by decide))).trans (GenP.W7_main_arg18 m ρ c),
     (h c _ (GenP.mem_uc main_arg19 (by decide))).trans (GenP.W7_main_arg19 m ρ c),
     (h c _ (GenP.mem_uc main_arg20 (by decide))).trans (GenP.W7_main_arg20 m ρ c),
     (h c _ (GenP.mem_uc main_arg21 (by decide))).trans (GenP.W7_main_arg21 m ρ c),
     (h c _ (GenP.mem_uc main_arg22 (by decide))).trans (GenP.W7_main_arg22 m ρ c),
     (h c _ (GenP.mem_uc main_arg23 (by decide))).trans (GenP.W7_main_arg23 m ρ c),
     (h c _ (GenP.mem_uc main_arg24 (by decide))).trans (GenP.W7_main_arg24 m ρ c),
     (h c _ (GenP.mem_uc main_arg25 (by decide))).trans (GenP.W7_main_arg25 m ρ c),
     (h c _ (GenP.mem_uc main_arg26 (by decide))).trans (GenP.W7_main_arg26 m ρ c)⟩) (run_all m ρ)

end Cert.KernelIdeal.Hand

end
-- ==== Proof.LibDenseLayer.lean ====
/-
  One layer of the graph network, as functions of whole arrays over the extended reals.

  A layer takes the neighbours' summed features A and the node's own features X (both n × d). It adds them, maps
  the sum to e hidden units through a weight matrix and a bias and cuts the result at zero, then maps the hidden
  units to f outputs through a second weight matrix and bias:

    hidden(p, k) = max( Σ_j (A(p, j) + X(p, j)) · Wa(j, k) + ba(k), 0 )
    dense(p, q)  = Σ_k H(p, k) · Wb(k, q) + bb(q)

  `cut` is the cut at zero of a whole array. A bias that a program keeps as a row [1, e] is read as a vector by
  `rowVec`. Every row of the result depends only on the same row of A and X, which is why a program that works
  through the rows ten thousand at a time computes the same array as one that takes them all at once. Generic in
  the extents.

  A layer works row by row: row p of the hidden units, of a dense map and of a cut depends only on row p of the arrays
  it is computed from. So if a second family of arrays (with another number of rows) has, in its row r, the entries of
  row p of the first, the layer's row r over the second family is the layer's row p over the first (`hidden_row`,
  `dense_row`, `cut_row`): the layer computed on one block of rows is the same rows of the layer on the whole array.
-/
import Idealize.ShloMosaic.PureOps.Ideal
import Idealize.ShloMosaic.Lib.ValueIdx
import Idealize.ShloMosaic.Lib.Pipeline.Value

noncomputable section

open scoped BigOperators

namespace Cert.LibDenseLayer

open Idealize.ShloMosaic Idealize.ShloMosaic.ValueIdx

variable {n n' d e f : Nat}

/-- The value a cut at zero compares with: the f32 word of +0. -/
abbrev zeroWord : EReal := Ideal.ofBits .f32 0x00000000#32

/-- The hidden units of a layer: the dense map of A + X with its bias, cut at zero. -/
def hidden (A X : (⟨2, ![n, d]⟩ : Shape).Idx → EReal) (Wa : (⟨2, ![d, e]⟩ : Shape).Idx → EReal)
    (ba : (⟨1, ![e]⟩ : Shape).Idx → EReal) : (⟨2, ![n, e]⟩ : Shape).Idx → EReal :=
  fun i => max ((∑ j : Fin d, (A (ix2 (i 0) j) + X (ix2 (i 0) j)) * Wa (ix2 j (i 1))) + ba (ix1 (i 1))) zeroWord

theorem hidden_apply (A X : (⟨2, ![n, d]⟩ : Shape).Idx → EReal) (Wa : (⟨2, ![d, e]⟩ : Shape).Idx → EReal)
    (ba : (⟨1, ![e]⟩ : Shape).Idx → EReal) (p : Fin n) (k : Fin e) :
    hidden A X Wa ba (ix2 p k)
      = max ((∑ j : Fin d, (A (ix2 p j) + X (ix2 p j)) * Wa (ix2 j k)) + ba (ix1 k)) zeroWord := rfl

/-- A dense map with bias: row p of the result is row p of H times Wb, plus bb. -/
def dense (H : (⟨2, ![n, e]⟩ : Shape).Idx → EReal) (Wb : (⟨2, ![e, f]⟩ : Shape).Idx → EReal)
    (bb : (⟨1, ![f]⟩ : Shape).Idx → EReal) : (⟨2, ![n, f]⟩ : Shape).Idx → EReal :=
  fun i => (∑ k : Fin e, H (ix2 (i 0) k) * Wb (ix2 k (i 1))) + bb (ix1 (i 1))

theorem dense_apply (H : (⟨2, ![n, e]⟩ : Shape).Idx → EReal) (Wb : (⟨2, ![e, f]⟩ : Shape).Idx → EReal)
    (bb : (⟨1, ![f]⟩ : Shape).Idx → EReal) (p : Fin n) (q : Fin f) :
    dense H Wb bb (ix2 p q) = (∑ k : Fin e, H (ix2 p k) * Wb (ix2 k q)) + bb (ix1 q) := rfl

/-- The cut at zero of a whole array. -/
def cut (Y : (⟨2, ![n, f]⟩ : Shape).Idx → EReal) : (⟨2, ![n, f]⟩ : Shape).Idx → EReal :=
  fun i => max (Y i) zeroWord

theorem cut_apply (Y : (⟨2, ![n, f]⟩ : Shape).Idx → EReal) (i : (⟨2, ![n, f]⟩ : Shape).Idx) :
    cut Y i = max (Y i) zeroWord := rfl

/-- A bias kept as the row [1, e], read as the vector [e]. -/
def rowVec (B : (⟨2, ![1, e]⟩ : Shape).Idx → EReal) : (⟨1, ![e]⟩ : Shape).Idx → EReal :=
  fun j => B (ix2 (0 : Fin 1) (j 0))

theorem rowVec_apply (B : (⟨2, ![1, e]⟩ : Shape).Idx → EReal) (k : Fin e) :
    rowVec B (ix1 k) = B (ix2 (0 : Fin 1) k) := rfl

/-- A vector re-laid as a row and read back as a vector is the vector. -/
theorem rowVec_cast (b : (⟨1, ![e]⟩ : Shape).Idx → EReal) (h : (⟨1, ![e]⟩ : Shape).ShapeCasts ⟨2, ![1, e]⟩) :
    rowVec (shapeCast ⟨2, ![1, e]⟩ b h) = b := by
  funext j
  obtain ⟨k, rfl⟩ : ∃ k : Fin e, j = ix1 k := ⟨j 0, eq_ix1 j⟩
  rw [rowVec_apply]
  exact shapeCast_apply b h _ _ (by
    rw [Shape.rowMajor_val_one, Shape.rowMajor_val_two]
    show k.val = 0 * e + k.val
    rw [Nat.zero_mul, Nat.zero_add])

/-! ## A layer works row by row -/

/-- Row r of the hidden units over (A', X') is row p of the hidden units over (A, X) when the rows agree. -/
theorem hidden_row (A X : (⟨2, ![n, d]⟩ : Shape).Idx → EReal) (A' X' : (⟨2, ![n', d]⟩ : Shape).Idx → EReal)
    (Wa : (⟨2, ![d, e]⟩ : Shape).Idx → EReal) (ba : (⟨1, ![e]⟩ : Shape).Idx → EReal) (p : Fin n) (r : Fin n')
    (hA : ∀ j : Fin d, A' (ix2 r j) = A (ix2 p j)) (hX : ∀ j : Fin d, X' (ix2 r j) = X (ix2 p j)) (k : Fin e) :
    hidden A' X' Wa ba (ix2 r k) = hidden A X Wa ba (ix2 p k) := by
  rw [hidden_apply, hidden_apply]
  refine congrArg₂ max (congrArg₂ (· + ·) (Finset.sum_congr rfl fun j _ => ?_) rfl) rfl
  rw [hA j, hX j]

/-- Row r of a dense map of H' is row p of the dense map of H when the rows agree. -/
theorem dense_row (H : (⟨2, ![n, e]⟩ : Shape).Idx → EReal) (H' : (⟨2, ![n', e]⟩ : Shape).Idx → EReal)
    (Wb : (⟨2, ![e, f]⟩ : Shape).Idx → EReal) (bb : (⟨1, ![f]⟩ : Shape).Idx → EReal) (p : Fin n) (r : Fin n')
    (hH : ∀ k : Fin e, H' (ix2 r k) = H (ix2 p k)) (q : Fin f) :
    dense H' Wb bb (ix2 r q) = dense H Wb bb (ix2 p q) := by
  rw [dense_apply, dense_apply]
  refine congrArg₂ (· + ·) (Finset.sum_congr rfl fun k _ => ?_) rfl
  rw [hH k]

/-- The cut of an entry is the cut of an equal entry. -/
theorem cut_row (Y : (⟨2, ![n, f]⟩ : Shape).Idx → EReal) (Y' : (⟨2, ![n', f]⟩ : Shape).Idx → EReal) (p : Fin n) (r : Fin n')
    (q : Fin f) (h : Y' (ix2 r q) = Y (ix2 p q)) : cut Y' (ix2 r q) = cut Y (ix2 p q) := by
  rw [cut_apply, cut_apply, h]

end Cert.LibDenseLayer

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«173554_j72438918414564_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibHostAffine.lean ====
/-
  An affine layer of a host program read at an entry, over the extended reals.

  The layer is  x ↦ x·W + b  on every row of an M×K array: the host's matrix product with plain dimension numbers,
  plus the bias vector [N] placed as the row [1, N] and spread over the M rows. At row `p` and column `q` it is
    Σ_{k < K} x(p, k) · W(k, q)  +  b(q).
  Generic in M, K, N; the two broadcasts' axis maps are passed with their values, the product's dimension numbers as
  any record equal to the plain ones.
-/
import proofs.«173554_j72438918414564_2_alg».proof.Proof.LibDotGeneralPlain
import proofs.«173554_j72438918414564_2_alg».proof.Proof.LibHostBroadcast

noncomputable section

open scoped BigOperators

namespace Cert.LibHostAffine

open Idealize.ShloMosaic Idealize.ShloMosaic.ValueIdx

variable {M K N : Nat}

/-- THE AFFINE LAYER AT AN ENTRY: the product's entry plus the bias's. -/
theorem affine_apply (D : DotDims ⟨2, ![M, K]⟩ ⟨2, ![K, N]⟩ ⟨2, ![M, N]⟩) (hD : D = DotDims.plain M K N)
    (prec : Option ContractPrecision)
    (d1 : Fin (⟨1, ![N]⟩ : Shape).rank → Fin (⟨2, ![1, N]⟩ : Shape).rank)
    (hd1 : d1 ⟨0, Nat.one_pos⟩ = ⟨1, Nat.lt_succ_self 1⟩)
    (h1 : (⟨1, ![N]⟩ : Shape).BroadcastsInDim ⟨2, ![1, N]⟩ d1)
    (d2 : Fin (⟨2, ![1, N]⟩ : Shape).rank → Fin (⟨2, ![M, N]⟩ : Shape).rank)
    (hd2 : d2 ⟨1, Nat.lt_succ_self 1⟩ = ⟨1, Nat.lt_succ_self 1⟩)
    (h2 : (⟨2, ![1, N]⟩ : Shape).BroadcastsInDim ⟨2, ![M, N]⟩ d2)
    (x : FVec Ideal ⟨2, ![M, K]⟩ .f32) (w : FVec Ideal ⟨2, ![K, N]⟩ .f32) (b : FVec Ideal ⟨1, ![N]⟩ .f32)
    (p : Fin M) (q : Fin N) :
    addf (Host.dotGeneral D prec x w)
        (broadcastInDim ⟨2, ![M, N]⟩ d2 h2 (broadcastInDim ⟨2, ![1, N]⟩ d1 h1 b)) (ix2 p q)
      = (∑ k : Fin K, x (ix2 p k) * w (ix2 k q)) + b (ix1 q) := by
  show FloatOps.dotGeneral D prec .single x w (ix2 p q)
      + broadcastInDim ⟨2, ![M, N]⟩ d2 h2 (broadcastInDim ⟨2, ![1, N]⟩ d1 h1 b) (ix2 p q) = _
  rw [Cert.LibDotGeneralPlain.dotGeneral_plain_apply D hD, Cert.LibHostBroadcast.bcast_1b_ab_apply d2 hd2 h2,
    Cert.LibHostBroadcast.bcast_b_1b_apply d1 hd1 h1]

end Cert.LibHostAffine

end
-- ==== Proof.LibHostDenseLayer.lean ====
/-
  The dense stages of a host program, as whole arrays over the extended reals.

  Read entry by entry, a host matrix product with plain dimension numbers plus a bias vector placed as a row and spread
  over the rows is the dense map of LibDenseLayer; the same applied to the sum of two arrays and followed by a maximum
  with the zero scalar spread over the array is the hidden units of a layer; a maximum with the zero scalar spread over
  the array is the cut at zero. Generic in the extents; the product's dimension numbers are passed as any record equal to
  the plain ones, the broadcasts' axis maps with their values.
-/
import proofs.«173554_j72438918414564_2_alg».proof.Proof.LibDenseLayer
import proofs.«173554_j72438918414564_2_alg».proof.Proof.LibHostAffine

noncomputable section

open scoped BigOperators

namespace Cert.LibHostDenseLayer

open Idealize.ShloMosaic Idealize.ShloMosaic.ValueIdx

variable {n d e f : Nat}

/-- A matrix product with plain dimension numbers plus a bias vector placed as a row and spread over the rows is
    the dense map: entry (p, q) is  Σ_k H(p, k) · Wb(k, q) + bb(q). -/
theorem host_dense (D : DotDims ⟨2, ![n, e]⟩ ⟨2, ![e, f]⟩ ⟨2, ![n, f]⟩) (hD : D = DotDims.plain n e f)
    (prec : Option ContractPrecision)
    (d1 : Fin (⟨1, ![f]⟩ : Shape).rank → Fin (⟨2, ![1, f]⟩ : Shape).rank)
    (hd1 : d1 ⟨0, Nat.one_pos⟩ = ⟨1, Nat.lt_succ_self 1⟩)
    (h1 : (⟨1, ![f]⟩ : Shape).BroadcastsInDim ⟨2, ![1, f]⟩ d1)
    (d2 : Fin (⟨2, ![1, f]⟩ : Shape).rank → Fin (⟨2, ![n, f]⟩ : Shape).rank)
    (hd2 : d2 ⟨1, Nat.lt_succ_self 1⟩ = ⟨1, Nat.lt_succ_self 1⟩)
    (h2 : (⟨2, ![1, f]⟩ : Shape).BroadcastsInDim ⟨2, ![n, f]⟩ d2)
    (H : FVec Ideal ⟨2, ![n, e]⟩ .f32) (Wb : FVec Ideal ⟨2, ![e, f]⟩ .f32) (bb : FVec Ideal ⟨1, ![f]⟩ .f32) :
    addf (Host.dotGeneral D prec H Wb)
        (broadcastInDim ⟨2, ![n, f]⟩ d2 h2 (broadcastInDim ⟨2, ![1, f]⟩ d1 h1 bb))
      = Cert.LibDenseLayer.dense H Wb bb := by
  funext i
  obtain ⟨p, q, rfl⟩ : ∃ (p : Fin n) (q : Fin f), i = ix2 p q := ⟨i 0, i 1, eq_ix2 i⟩
  rw [Cert.LibHostAffine.affine_apply D hD prec d1 hd1 h1 d2 hd2 h2, Cert.LibDenseLayer.dense_apply]

/-- A maximum with the zero scalar spread over the array is the cut at zero. -/
theorem host_cut (d0 : Fin (⟨0, ![]⟩ : Shape).rank → Fin (⟨2, ![n, f]⟩ : Shape).rank)
    (h0 : (⟨0, ![]⟩ : Shape).BroadcastsInDim ⟨2, ![n, f]⟩ d0) (Y : FVec Ideal ⟨2, ![n, f]⟩ .f32) :
    maximumf Y (broadcastInDim ⟨2, ![n, f]⟩ d0 h0 (constant (F := Ideal) ⟨0, ![]⟩ .f32 0x00000000#32))
      = Cert.LibDenseLayer.cut Y := by
  funext i
  rw [maximumf_apply, Cert.LibHostBroadcast.bcast_scalar_apply, constant_apply, Cert.LibDenseLayer.cut_apply]

/-- The dense map of the sum of two arrays, followed by a maximum with the zero scalar spread over the array, is the
    hidden units of a layer: entry (p, k) is  max( Σ_j (A(p, j) + X(p, j)) · Wa(j, k) + ba(k), 0 ). -/
theorem host_hidden (D : DotDims ⟨2, ![n, d]⟩ ⟨2, ![d, e]⟩ ⟨2, ![n, e]⟩) (hD : D = DotDims.plain n d e)
    (prec : Option ContractPrecision)
    (d1 : Fin (⟨1, ![e]⟩ : Shape).rank → Fin (⟨2, ![1, e]⟩ : Shape).rank)
    (hd1 : d1 ⟨0, Nat.one_pos⟩ = ⟨1, Nat.lt_succ_self 1⟩)
    (h1 : (⟨1, ![e]⟩ : Shape).BroadcastsInDim ⟨2, ![1, e]⟩ d1)
    (d2 : Fin (⟨2, ![1, e]⟩ : Shape).rank → Fin (⟨2, ![n, e]⟩ : Shape).rank)
    (hd2 : d2 ⟨1, Nat.lt_succ_self 1⟩ = ⟨1, Nat.lt_succ_self 1⟩)
    (h2 : (⟨2, ![1, e]⟩ : Shape).BroadcastsInDim ⟨2, ![n, e]⟩ d2)
    (d0 : Fin (⟨0, ![]⟩ : Shape).rank → Fin (⟨2, ![n, e]⟩ : Shape).rank)
    (h0 : (⟨0, ![]⟩ : Shape).BroadcastsInDim ⟨2, ![n, e]⟩ d0)
    (A X : FVec Ideal ⟨2, ![n, d]⟩ .f32) (Wa : FVec Ideal ⟨2, ![d, e]⟩ .f32) (ba : FVec Ideal ⟨1, ![e]⟩ .f32) :
    maximumf
        (addf (Host.dotGeneral D prec (addf A X) Wa)
          (broadcastInDim ⟨2, ![n, e]⟩ d2 h2 (broadcastInDim ⟨2, ![1, e]⟩ d1 h1 ba)))
        (broadcastInDim ⟨2, ![n, e]⟩ d0 h0 (constant (F := Ideal) ⟨0, ![]⟩ .f32 0x00000000#32))
      = Cert.LibDenseLayer.hidden A X Wa ba := by
  funext i
  obtain ⟨p, k, rfl⟩ : ∃ (p : Fin n) (k : Fin e), i = ix2 p k := ⟨i 0, i 1, eq_ix2 i⟩
  rw [maximumf_apply, Cert.LibHostAffine.affine_apply D hD prec d1 hd1 h1 d2 hd2 h2,
    Cert.LibHostBroadcast.bcast_scalar_apply, constant_apply, Cert.LibDenseLayer.hidden_apply]
  rfl

end Cert.LibHostDenseLayer

end
-- ==== Proof.LibKernelDense.lean ====
/-
  The kernel's stages as whole arrays over the extended reals.

  Each of the three kernels is built from one kind of stage: a matrix product of two operands (each first rounded to
  bf16, which is the identity on the extended reals) accumulated into the zero matrix, plus a bias kept as a row
  [1, e] and spread over the rows. Read entry by entry this is the dense map  Σ_k X(p, k) · W(k, q) + b(q).  A
  maximum with a splat of the zero word is the cut at zero. The sigmoid that the host spells as
  1 / (1 + e^(-x)), with the f32 word of one for both ones, is the single logistic operation of the kernel: that
  is the definition of the logistic function on the extended reals, at the infinities too.
  Generic in the extents.
-/
import proofs.«173554_j72438918414564_2_alg».proof.Proof.LibDenseLayer
import proofs.«173554_j72438918414564_2_alg».proof.Proof.LibMatmulPlain
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.HeteroLayers

open Idealize.ShloMosaic Idealize.ShloMosaic.ValueIdx Cert.LibDenseLayer

variable {n d e : Nat}

/-- A maximum with a splat of the zero word is the cut at zero. -/
theorem splat_cut (Y : FVec Ideal ⟨2, ![n, e]⟩ .f32) :
    maximumf Y (broadcast ⟨2, ![n, e]⟩ (Scalar.ofBits (F := Ideal) .f32 0x00000000#32)) = cut Y := by
  funext i
  rfl

/-- A row [1, e] spread over n rows has, at (p, q), the row's entry q. -/
theorem row_spread_apply (B : (⟨2, ![1, e]⟩ : Shape).Idx → EReal)
    (h : (⟨2, ![1, e]⟩ : Shape).Broadcasts ⟨2, ![n, e]⟩) (p : Fin n) (q : Fin e) :
    broadcastTo ⟨2, ![n, e]⟩ B h (ix2 p q) = B (ix2 (0 : Fin 1) q) := by
  refine broadcastTo_apply B h (ix2 p q) (ix2 (0 : Fin 1) q) fun a => ?_
  match a with
  | ⟨0, _⟩ => rfl
  | ⟨1, _⟩ =>
    show q.val = if e = 1 then 0 else q.val
    split
    · have := q.isLt; omega
    · rfl

/-- One stage of a kernel: the product of the (rounded) operands into the zero matrix, plus the bias row spread
    over the rows, is the dense map with the row read as a vector. -/
theorem kernel_dense (D : DotDims ⟨2, ![n, d]⟩ ⟨2, ![d, e]⟩ ⟨2, ![n, e]⟩) (hD : D = DotDims.plain n d e)
    (X : FVec Ideal ⟨2, ![n, d]⟩ .f32) (W : FVec Ideal ⟨2, ![d, e]⟩ .f32) (B : FVec Ideal ⟨2, ![1, e]⟩ .f32)
    (hx : FTy.bf16.bits < FTy.f32.bits)
    (hs : (⟨2, ![1, e]⟩ : Shape).ShapeCasts ⟨2, ![1, e]⟩)
    (hb : (⟨2, ![1, e]⟩ : Shape).Broadcasts ⟨2, ![n, e]⟩) :
    addf (matmul D none (truncf .bf16 X hx) (truncf .bf16 W hx) (constant ⟨2, ![n, e]⟩ .f32 0x00000000#32))
        (broadcastTo ⟨2, ![n, e]⟩ (shapeCast ⟨2, ![1, e]⟩ B hs) hb)
      = dense X W (rowVec B) := by
  funext i
  obtain ⟨p, q, rfl⟩ : ∃ (p : Fin n) (q : Fin e), i = ix2 p q := ⟨i 0, i 1, eq_ix2 i⟩
  rw [addf_apply]
  simp only [matmul]
  rw [Cert.LibMatmulPlain.matmul_plain_zero_apply D hD none _ _ p q, shapeCast_self, row_spread_apply,
    dense_apply, rowVec_apply]
  rfl

/-- The logistic function applied entry by entry. -/
def sigm {s : Shape} (Y : s.Idx → EReal) : s.Idx → EReal := fun i => Ideal.logistic (Y i)

theorem sigm_apply {s : Shape} (Y : s.Idx → EReal) (i : s.Idx) : sigm Y i = Ideal.logistic (Y i) := rfl

/-- The kernel's logistic operation is the logistic function entry by entry. -/
theorem logistic_eq {s : Shape} (Y : FVec Ideal s .f32) : logistic Y = sigm Y := rfl

/-- The host's spelling  1 / (1 + e^(-x))  with the f32 word of one is the logistic function entry by entry. -/
theorem spelled_eq {s : Shape} (d0 : Fin (⟨0, ![]⟩ : Shape).rank → Fin s.rank)
    (h0 : (⟨0, ![]⟩ : Shape).BroadcastsInDim s d0) (Y : FVec Ideal s .f32) :
    Host.divf (broadcastInDim s d0 h0 (constant (F := Ideal) ⟨0, ![]⟩ .f32 0x3F800000#32))
        (addf (broadcastInDim s d0 h0 (constant (F := Ideal) ⟨0, ![]⟩ .f32 0x3F800000#32)) (Host.exp (Host.negf Y)))
      = sigm Y := by
  funext i
  have h1 : broadcastInDim s d0 h0 (constant (F := Ideal) ⟨0, ![]⟩ .f32 0x3F800000#32) i = (1 : EReal) :=
    (broadcastInDim_apply d0 h0 _ i ix0 fun ax => ax.elim0).trans
      ((constant_apply _ _).trans Idealize.ShloMosaic.Ideal.ofBits_one_f32)
  show Ideal.div _ (_ + Ideal.exp (-(Y i))) = Ideal.logistic (Y i)
  rw [h1]
  rfl

end Cert.HeteroLayers

end
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.LibGatherCommute.lean ====
/-
  Why projecting a small table first and gathering afterwards computes the same numbers.

  A row gather moves whole rows and computes nothing, and a dense map, a cut at zero and a sigmoid act on each row by
  itself. So a gather commutes with them: row e of  dense (gather X idx) W b  is the dense map of row idx(e) of X, which
  is row idx(e) of  dense X W b.  Three statements, generic in every extent:

  * messages: rows of a table X picked by a column of words, cut at zero, picked again by a second column and mapped
    densely, are the rows of  dense (cut X) W b  picked once by the column that composes the two picks;
  * the composed column: gathering the first index vector by the second column and then normalising negative words
    is, at edge e, the normalised first vector read at the row the second column selects;
  * the tail: gathering the one-column table of scores  sigm (dense (cut (dense (cut (dense C ..)) ..)) ..)  by a
    column of words is scoring the gathered rows of  cut (dense C ..).

  No arithmetic law of the extended reals is used: both sides are the same sums of the same products.
-/
import proofs.«173554_j72438918414564_2_alg».proof.Proof.LibDenseLayer
import proofs.«173554_j72438918414564_2_alg».proof.Proof.LibSegment
import proofs.«173554_j72438918414564_2_alg».proof.Proof.LibHostBroadcast
import proofs.«173554_j72438918414564_2_alg».proof.Proof.LibKernelDense

noncomputable section

open scoped BigOperators

namespace Cert.HeteroNet

open Idealize.ShloMosaic Idealize.ShloMosaic.ValueIdx Idealize.ShloMosaic.SegmentIdx Cert.LibDenseLayer Cert.HeteroLayers

/-- Rows picked twice, cut and mapped densely, are rows of the mapped table picked once. -/
theorem messages_eq {N M E K L w : Nat} (hN : 0 < N) (hM : 0 < M)
    (g1 : GatherDims ⟨2, ![M, K]⟩ ⟨2, ![E, 1]⟩ ⟨2, ![E, K]⟩)
    (wf1 : GatherDims.WF ⟨2, ![M, K]⟩ ⟨2, ![E, 1]⟩ ⟨2, ![E, K]⟩ [1] [0] [] [0] [] 1 ![1, K])
    (hg1 : g1 = gatherRowsDims M E K wf1)
    (g2 : GatherDims ⟨2, ![N, K]⟩ ⟨2, ![M, 1]⟩ ⟨2, ![M, K]⟩)
    (wf2 : GatherDims.WF ⟨2, ![N, K]⟩ ⟨2, ![M, 1]⟩ ⟨2, ![M, K]⟩ [1] [0] [] [0] [] 1 ![1, K])
    (hg2 : g2 = gatherRowsDims N M K wf2)
    (g3 : GatherDims ⟨2, ![N, L]⟩ ⟨2, ![E, 1]⟩ ⟨2, ![E, L]⟩)
    (wf3 : GatherDims.WF ⟨2, ![N, L]⟩ ⟨2, ![E, 1]⟩ ⟨2, ![E, L]⟩ [1] [0] [] [0] [] 1 ![1, L])
    (hg3 : g3 = gatherRowsDims N E L wf3)
    (X : (⟨2, ![N, K]⟩ : Shape).Idx → EReal) (W : (⟨2, ![K, L]⟩ : Shape).Idx → EReal)
    (b : (⟨1, ![L]⟩ : Shape).Idx → EReal)
    (idxM : IVec ⟨2, ![M, 1]⟩ w) (idxE idxC : IVec ⟨2, ![E, 1]⟩ w)
    (hC : ∀ e : Fin E, idxC (ix2 e 0) = idxM (ix2 (clampRow M hM (idxE (ix2 e 0))) 0)) :
    dense (Host.gather g1 (cut (Host.gather g2 X idxM)) idxE) W b
      = Host.gather g3 (dense (cut X) W b) idxC := by
  subst hg1 hg2 hg3
  funext i
  obtain ⟨e, q, rfl⟩ : ∃ (e : Fin E) (q : Fin L), i = ix2 e q := ⟨i 0, i 1, eq_ix2 i⟩
  rw [gatherRows_apply hN wf3, hC e]
  refine dense_row (cut X) _ W b _ e (fun k => ?_) q
  rw [gatherRows_apply hM wf1, cut_apply, cut_apply, gatherRows_apply hN wf2]

/-- jnp's reading of a negative index, entry by entry: a word below zero counts from the end. -/
def wrap {s : Shape} (zero len : IVec s 32) (v : IVec s 32) : IVec s 32 :=
  select (cmpi .slt v zero) (addi v len) v

/-- The wrapped word at an entry depends only on the three words at that entry. -/
theorem wrap_congr {s t : Shape} (zero len v : IVec s 32) (zero' len' v' : IVec t 32) (i : s.Idx) (j : t.Idx)
    (hz : zero i = zero' j) (hl : len i = len' j) (hv : v i = v' j) : wrap zero len v i = wrap zero' len' v' j := by
  simp only [wrap, select, cmpi, addi, hz, hl, hv]

/-- The composed index column: gather the node-to-row vector by the edge column, wrap, stand as a column; at
    edge e this is the wrapped node-to-row vector, as a column, at the node the edge column selects. -/
theorem composed_column {M E : Nat} (hM : 0 < M) (z n : BitVec 32)
    (gF : GatherDims ⟨1, ![M]⟩ ⟨2, ![E, 1]⟩ ⟨1, ![E]⟩)
    (wfF : GatherDims.WF ⟨1, ![M]⟩ ⟨2, ![E, 1]⟩ ⟨1, ![E]⟩ [] [0] [] [0] [] 1 ![1])
    (hgF : gF = gatherFlatDims M E wfF)
    (dE : Fin (⟨1, ![E]⟩ : Shape).rank → Fin (⟨2, ![E, 1]⟩ : Shape).rank) (hdE : dE ⟨0, Nat.one_pos⟩ = ⟨0, Nat.succ_pos 1⟩)
    (hE : (⟨1, ![E]⟩ : Shape).BroadcastsInDim ⟨2, ![E, 1]⟩ dE)
    (dM : Fin (⟨1, ![M]⟩ : Shape).rank → Fin (⟨2, ![M, 1]⟩ : Shape).rank) (hdM : dM ⟨0, Nat.one_pos⟩ = ⟨0, Nat.succ_pos 1⟩)
    (hMb : (⟨1, ![M]⟩ : Shape).BroadcastsInDim ⟨2, ![M, 1]⟩ dM)
    (d0E : Fin (⟨0, ![]⟩ : Shape).rank → Fin (⟨1, ![E]⟩ : Shape).rank) (h0E : (⟨0, ![]⟩ : Shape).BroadcastsInDim ⟨1, ![E]⟩ d0E)
    (d0M : Fin (⟨0, ![]⟩ : Shape).rank → Fin (⟨1, ![M]⟩ : Shape).rank) (h0M : (⟨0, ![]⟩ : Shape).BroadcastsInDim ⟨1, ![M]⟩ d0M)
    (ids : IVec ⟨1, ![M]⟩ 32) (idxE : IVec ⟨2, ![E, 1]⟩ 32) (e : Fin E) :
    broadcastInDim ⟨2, ![E, 1]⟩ dE hE
        (wrap (broadcastInDim ⟨1, ![E]⟩ d0E h0E (constantI ⟨0, ![]⟩ 32 z)) (broadcastInDim ⟨1, ![E]⟩ d0E h0E (constantI ⟨0, ![]⟩ 32 n))
          (Host.gather gF ids idxE)) (ix2 e (0 : Fin 1))
      = broadcastInDim ⟨2, ![M, 1]⟩ dM hMb
          (wrap (broadcastInDim ⟨1, ![M]⟩ d0M h0M (constantI ⟨0, ![]⟩ 32 z)) (broadcastInDim ⟨1, ![M]⟩ d0M h0M (constantI ⟨0, ![]⟩ 32 n)) ids)
          (ix2 (clampRow M hM (idxE (ix2 e 0))) (0 : Fin 1)) := by
  subst hgF
  rw [Cert.LibHostBroadcast.bcast_a_a1_apply dE hdE hE, Cert.LibHostBroadcast.bcast_a_a1_apply dM hdM hMb]
  refine wrap_congr _ _ _ _ _ _ _ _ ?_ ?_ (gatherFlat_apply hM wfF ids idxE e)
  · rw [Cert.LibHostBroadcast.bcast_scalar_apply, Cert.LibHostBroadcast.bcast_scalar_apply]
  · rw [Cert.LibHostBroadcast.bcast_scalar_apply, Cert.LibHostBroadcast.bcast_scalar_apply]

/-- The tail: the scores of a table gathered by a column of words, read as a vector, are the scores of the gathered
    rows of the table's first hidden layer. -/
theorem tail_eq {N I A B C w : Nat} (hN : 0 < N)
    (gK : GatherDims ⟨2, ![N, 1]⟩ ⟨2, ![I, 1]⟩ ⟨2, ![I, 1]⟩)
    (wfK : GatherDims.WF ⟨2, ![N, 1]⟩ ⟨2, ![I, 1]⟩ ⟨2, ![I, 1]⟩ [1] [0] [] [0] [] 1 ![1, 1])
    (hgK : gK = gatherRowsDims N I 1 wfK)
    (gR : GatherDims ⟨2, ![N, B]⟩ ⟨2, ![I, 1]⟩ ⟨2, ![I, B]⟩)
    (wfR : GatherDims.WF ⟨2, ![N, B]⟩ ⟨2, ![I, 1]⟩ ⟨2, ![I, B]⟩ [1] [0] [] [0] [] 1 ![1, B])
    (hgR : gR = gatherRowsDims N I B wfR)
    (X : (⟨2, ![N, A]⟩ : Shape).Idx → EReal)
    (W1 : (⟨2, ![A, B]⟩ : Shape).Idx → EReal) (b1 : (⟨1, ![B]⟩ : Shape).Idx → EReal)
    (W2 : (⟨2, ![B, C]⟩ : Shape).Idx → EReal) (b2 : (⟨1, ![C]⟩ : Shape).Idx → EReal)
    (W3 : (⟨2, ![C, 1]⟩ : Shape).Idx → EReal) (b3 : (⟨1, ![1]⟩ : Shape).Idx → EReal)
    (idx : IVec ⟨2, ![I, 1]⟩ w) (hs : (⟨2, ![I, 1]⟩ : Shape).ShapeCasts ⟨1, ![I]⟩) :
    shapeCast ⟨1, ![I]⟩ (Host.gather gK (sigm (dense (cut (dense (cut (dense X W1 b1)) W2 b2)) W3 b3)) idx) hs
      = shapeCast ⟨1, ![I]⟩ (sigm (dense (cut (dense (Host.gather gR (cut (dense X W1 b1)) idx) W2 b2)) W3 b3)) hs := by
  subst hgK hgR
  funext i
  obtain ⟨p, rfl⟩ : ∃ p : Fin I, i = ix1 p := ⟨i 0, eq_ix1 i⟩
  have hk : ((⟨2, ![I, 1]⟩ : Shape).rowMajor (ix2 p (0 : Fin 1))).val = ((⟨1, ![I]⟩ : Shape).rowMajor (ix1 p)).val := by
    rw [Shape.rowMajor_val_two, Shape.rowMajor_val_one]
    show p.val * 1 + 0 = p.val
    omega
  rw [shapeCast_apply _ hs (ix1 p) (ix2 p (0 : Fin 1)) hk, shapeCast_apply _ hs (ix1 p) (ix2 p (0 : Fin 1)) hk,
    gatherRows_apply hN wfK, sigm_apply, sigm_apply]
  refine congrArg Ideal.logistic (dense_row _ _ W3 b3 _ p (fun k => ?_) (0 : Fin 1)).symm
  refine cut_row _ _ _ p k (dense_row _ _ W2 b2 _ p (fun j => ?_) k)
  rw [gatherRows_apply hN wfR]

end Cert.HeteroNet

end
-- ==== Proof.RefNet.lean ====
/-
  The reference program's result, stage by stage, over the extended reals.

  The reference gathers every node's embedding row first and then works edge by edge: for each of the two relations it
  takes the source node's row (cut at zero), maps it densely, and adds it into the target node's row; the two sums are
  averaged, mapped densely and cut at zero; every instance takes its node's row, which goes through two more dense
  maps (one cut at zero between them) and the sigmoid, spelled  1 / (1 + e^(-x)).  Written with the dense map, the
  cut and the sigmoid of whole arrays, as a function of the argument arrays, its result is `result` below;
  `result_eq` says the run's term is that. (The first message-passing layer of the source program feeds nothing
  that the result reads, and does not occur in the run's term.)
-/
import proofs.«173554_j72438918414564_2_alg».proof.Proof.Gen.ReferenceIdeal.Run
import proofs.«173554_j72438918414564_2_alg».proof.Proof.LibHostDenseLayer
import proofs.«173554_j72438918414564_2_alg».proof.Proof.LibKernelDense
import proofs.«173554_j72438918414564_2_alg».proof.Proof.LibGatherCommute

noncomputable section

namespace Cert.ReferenceIdeal.Hand

open Cert.ReferenceIdeal Cert.ReferenceIdeal.Gen Cert.ReferenceIdeal.Value Idealize.ShloMosaic Idealize.ShloMosaic.TcCoe Idealize.SL.Sem
open Cert.LibDenseLayer Cert.HeteroLayers Cert.HeteroNet

/-! ## The index columns: an index vector with negative words wrapped, stood as a column -/

def colBene (ids : IVec S200000 32) : IVec S200000x1 32 :=
  broadcastInDim S200000x1 ![0] bcast_S200000_S200000x1_0
    (wrap (broadcastInDim S200000 ![] bcast_S_S200000 (constantI S_ 32 0#32))
      (broadcastInDim S200000 ![] bcast_S_S200000 (constantI S_ 32 10000#32)) ids)
def colTreat (ids : IVec S100000 32) : IVec S100000x1 32 :=
  broadcastInDim S100000x1 ![0] bcast_S100000_S100000x1_0
    (wrap (broadcastInDim S100000 ![] bcast_S_S100000 (constantI S_ 32 0#32))
      (broadcastInDim S100000 ![] bcast_S_S100000 (constantI S_ 32 1000#32)) ids)
def colSrcB (src : IVec S1000000 32) : IVec S1000000x1 32 :=
  broadcastInDim S1000000x1 ![0] bcast_S1000000_S1000000x1_0
    (wrap (broadcastInDim S1000000 ![] bcast_S_S1000000 (constantI S_ 32 0#32))
      (broadcastInDim S1000000 ![] bcast_S_S1000000 (constantI S_ 32 200000#32)) src)
def colSrcT (src : IVec S1000000 32) : IVec S1000000x1 32 :=
  broadcastInDim S1000000x1 ![0] bcast_S1000000_S1000000x1_0
    (wrap (broadcastInDim S1000000 ![] bcast_S_S1000000 (constantI S_ 32 0#32))
      (broadcastInDim S1000000 ![] bcast_S_S1000000 (constantI S_ 32 100000#32)) src)
def colInst (inst : IVec S500000 32) : IVec S500000x1 32 :=
  broadcastInDim S500000x1 ![0] bcast_S500000_S500000x1_0
    (wrap (broadcastInDim S500000 ![] bcast_S_S500000 (constantI S_ 32 0#32))
      (broadcastInDim S500000 ![] bcast_S_S500000 (constantI S_ 32 10000#32)) inst)

/-! ## The stages -/

/-- The messages of the first relation, one row per edge: the source node's embedding row, cut at zero, mapped densely. -/
def msgB (emb : FVec Ideal S10000x64 .f32) (ids : IVec S200000 32) (src : IVec S1000000 32)
    (W : FVec Ideal S64x64 .f32) (b : FVec Ideal S64 .f32) : FVec Ideal S1000000x64 .f32 :=
  dense (Host.gather gather_S200000x64_S1000000x1_S1000000x64_1_0_n_n_0_1_164
      (cut (Host.gather gather_S10000x64_S200000x1_S200000x64_1_0_n_n_0_1_164 emb (colBene ids))) (colSrcB src)) W b
/-- The messages of the second relation, one row per edge. -/
def msgT (emb : FVec Ideal S1000x64 .f32) (ids : IVec S100000 32) (src : IVec S1000000 32)
    (W : FVec Ideal S64x64 .f32) (b : FVec Ideal S64 .f32) : FVec Ideal S1000000x64 .f32 :=
  dense (Host.gather gather_S100000x64_S1000000x1_S1000000x64_1_0_n_n_0_1_164
      (cut (Host.gather gather_S1000x64_S100000x1_S100000x64_1_0_n_n_0_1_164 emb (colTreat ids))) (colSrcT src)) W b

/-- Half the sum of the two relations' messages, each added into its target rows. -/
def combine (dstB dstT : IVec S1000000 32) (mb mt : FVec Ideal S1000000x64 .f32) : FVec Ideal S10000x64 .f32 :=
  mulf (broadcastInDim S10000x64 ![] bcast_S_S10000x64 (constant S_ .f32 0x3F000000#32))
    (addf
      (Host.scatterAdd scatter_S10000x64_S1000000x1_S1000000x64_1_0_0_1
        (broadcastInDim S10000x64 ![] bcast_S_S10000x64 (constant S_ .f32 0x00000000#32))
        (broadcastInDim S1000000x1 ![0] bcast_S1000000_S1000000x1_0 dstB) mb)
      (Host.scatterAdd scatter_S10000x64_S1000000x1_S1000000x64_1_0_0_1
        (broadcastInDim S10000x64 ![] bcast_S_S10000x64 (constant S_ .f32 0x00000000#32))
        (broadcastInDim S1000000x1 ![0] bcast_S1000000_S1000000x1_0 dstT) mt))

/-- The scores of the instances' rows, from the combined table. -/
def scores (comb : FVec Ideal S10000x64 .f32) (inst : IVec S500000 32)
    (wU : FVec Ideal S64x64 .f32) (bU : FVec Ideal S64 .f32) (w1 : FVec Ideal S64x32 .f32) (b1 : FVec Ideal S32 .f32)
    (w2 : FVec Ideal S32x1 .f32) (b2 : FVec Ideal S1 .f32) : FVec Ideal S500000 .f32 :=
  shapeCast S500000
    (sigm (dense (cut (dense
      (Host.gather gather_S10000x64_S500000x1_S500000x64_1_0_n_n_0_1_164 (cut (dense comb wU bU)) (colInst inst))
      w1 b1)) w2 b2))
    shapeCasts_S500000x1_S500000

/-- The reference's result as a function of the argument arrays it reads. -/
def result (beneIds : IVec S200000 32) (treatIds : IVec S100000 32) (srcB dstB srcT dstT : IVec S1000000 32)
    (inst : IVec S500000 32) (beneEmb : FVec Ideal S10000x64 .f32) (treatEmb : FVec Ideal S1000x64 .f32)
    (wB : FVec Ideal S64x64 .f32) (bB : FVec Ideal S64 .f32) (wT : FVec Ideal S64x64 .f32) (bT : FVec Ideal S64 .f32)
    (wU : FVec Ideal S64x64 .f32) (bU : FVec Ideal S64 .f32) (w1 : FVec Ideal S64x32 .f32) (b1 : FVec Ideal S32 .f32)
    (w2 : FVec Ideal S32x1 .f32) (b2 : FVec Ideal S1 .f32) : FVec Ideal S500000 .f32 :=
  scores (combine dstB dstT (msgB beneEmb beneIds srcB wB bB) (msgT treatEmb treatIds srcT wT bT)) inst wU bU w1 b1 w2 b2

variable (m : (ℓ : Loc nD τ sig) → Buf (Elt Ideal) ℓ) (c : Dev nD)

/-- The run's result term is `result` of the arguments: each product-plus-bias is a dense map, each maximum with
    zero a cut, the spelled quotient the sigmoid. -/
theorem result_eq : res_main_v119 (F := Ideal) m c
    = result (m ((c.tc : Thread nD τ).loc main_arg0)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg10)) (m ((c.tc : Thread nD τ).loc main_arg17))
        (m ((c.tc : Thread nD τ).loc main_arg18)) (m ((c.tc : Thread nD τ).loc main_arg19))
        (m ((c.tc : Thread nD τ).loc main_arg20)) (m ((c.tc : Thread nD τ).loc main_arg21))
        (m ((c.tc : Thread nD τ).loc main_arg22)) (m ((c.tc : Thread nD τ).loc main_arg23))
        (m ((c.tc : Thread nD τ).loc main_arg24)) (m ((c.tc : Thread nD τ).loc main_arg25))
        (m ((c.tc : Thread nD τ).loc main_arg26)) := by
  unfold res_main_v119 result scores msgB msgT combine colBene colTreat colSrcB colSrcT colInst wrap
  rw [spelled_eq ![] bcast_S_S500000x1,
    Cert.LibHostDenseLayer.host_dense dot_S500000x32_S32x1_S500000x1_1_0_0_1_n_n rfl none ![1] rfl bcast_S1_S1x1_1 ![0, 1] rfl bcast_S1x1_S500000x1_0_1,
    Cert.LibHostDenseLayer.host_cut ![] bcast_S_S500000x32,
    Cert.LibHostDenseLayer.host_dense dot_S500000x64_S64x32_S500000x32_1_0_0_1_n_n rfl none ![1] rfl bcast_S32_S1x32_1 ![0, 1] rfl bcast_S1x32_S500000x32_0_1,
    Cert.LibHostDenseLayer.host_cut ![] bcast_S_S10000x64,
    Cert.LibHostDenseLayer.host_dense dot_S10000x64_S64x64_S10000x64_1_0_0_1_n_n rfl none ![1] rfl bcast_S64_S1x64_1 ![0, 1] rfl bcast_S1x64_S10000x64_0_1,
    Cert.LibHostDenseLayer.host_dense dot_S1000000x64_S64x64_S1000000x64_1_0_0_1_n_n rfl none ![1] rfl bcast_S64_S1x64_1 ![0, 1] rfl bcast_S1x64_S1000000x64_0_1,
    Cert.LibHostDenseLayer.host_dense dot_S1000000x64_S64x64_S1000000x64_1_0_0_1_n_n rfl none ![1] rfl bcast_S64_S1x64_1 ![0, 1] rfl bcast_S1x64_S1000000x64_0_1,
    Cert.LibHostDenseLayer.host_cut ![] bcast_S_S200000x64,
    Cert.LibHostDenseLayer.host_cut ![] bcast_S_S100000x64]
  rfl

end Cert.ReferenceIdeal.Hand

end
-- ==== Proof.KernelLayers.lean ====
/-
  The three kernels' stored values as compositions of the dense map, the cut at zero and the sigmoid.

  The two projection kernels store  dense (cut X) W b:  the table cut at zero, times the weights, plus the bias row.
  The update kernel stores the sigmoid of three dense maps with a cut at zero after the first and after the second.
  Rounding an operand to bf16 before a product is the identity on the extended reals, and the kernels' bias rows
  [1, e] are read as vectors.
-/
import proofs.«173554_j72438918414564_2_alg».proof.Proof.Gen.KernelIdeal.Skeleton
import proofs.«173554_j72438918414564_2_alg».proof.Proof.LibKernelDense

noncomputable section

namespace Cert.KernelIdeal.Hand

open Cert.KernelIdeal Idealize.ShloMosaic Idealize.ShloMosaic.ValueIdx Cert.LibDenseLayer Cert.HeteroLayers

/-- The first projection kernel stores the dense map of its table cut at zero. -/
theorem pay0_eq (x0 : Vec Ideal S10000x64 .f32) (x1 : Vec Ideal S64x64 .f32) (x2 : Vec Ideal S1x64 .f32) :
    Gen.k0_pay1 (F := Ideal) x0 x1 x2 = dense (cut x0) x1 (rowVec x2) := by
  unfold Gen.k0_pay1
  dsimp only
  rw [kernel_dense dot_S10000x64_S64x64_S10000x64_1_0_0_1_n_n rfl, splat_cut]

/-- The second projection kernel stores the dense map of its table cut at zero. -/
theorem pay1_eq (x0 : Vec Ideal S1000x64 .f32) (x1 : Vec Ideal S64x64 .f32) (x2 : Vec Ideal S1x64 .f32) :
    Gen.k1_pay1 (F := Ideal) x0 x1 x2 = dense (cut x0) x1 (rowVec x2) := by
  unfold Gen.k1_pay1
  dsimp only
  rw [kernel_dense dot_S1000x64_S64x64_S1000x64_1_0_0_1_n_n rfl, splat_cut]

/-- The update kernel stores the sigmoid of three dense maps, cut at zero after the first and the second. -/
theorem pay2_eq (x0 : Vec Ideal S10000x64 .f32) (x1 : Vec Ideal S64x64 .f32) (x2 : Vec Ideal S1x64 .f32)
    (x3 : Vec Ideal S64x32 .f32) (x4 : Vec Ideal S1x32 .f32) (x5 : Vec Ideal S32x1 .f32) (x6 : Vec Ideal S1x1 .f32) :
    Gen.k2_pay1 (F := Ideal) x0 x1 x2 x3 x4 x5 x6
      = sigm (dense (cut (dense (cut (dense x0 x1 (rowVec x2))) x3 (rowVec x4))) x5 (rowVec x6)) := by
  unfold Gen.k2_pay1
  dsimp only
  rw [shapeCast_self x0, kernel_dense dot_S10000x64_S64x64_S10000x64_1_0_0_1_n_n rfl, splat_cut,
    kernel_dense dot_S10000x64_S64x32_S10000x32_1_0_0_1_n_n rfl, splat_cut,
    kernel_dense dot_S10000x32_S32x1_S10000x1_1_0_0_1_n_n rfl, logistic_eq]

end Cert.KernelIdeal.Hand

end
-- ==== Proof.Bridge.lean ====
/-
  The kernel program's result is the reference's function of the same arguments.

  The kernel projects each small embedding table once (cut at zero, dense map) and lets every edge take a row of the
  projected table, where the reference lets every edge take its node's embedding row and projects that row. A row
  taken through two index vectors one after the other is the row taken through their composition, and a dense map
  or a cut of a taken row is the taken row of the dense map or the cut: so the two programs' messages are the same
  array, entry by entry. The two sums over target rows, their mean, and the update layer are then the same
  operations on the same arrays. At the end the kernel scores the ten thousand rows and lets each instance take
  its row's score, where the reference lets each instance take its row and scores it: the same number again.
-/
import proofs.«173554_j72438918414564_2_alg».proof.Proof.KernelTerm
import proofs.«173554_j72438918414564_2_alg».proof.Proof.KernelLayers
import proofs.«173554_j72438918414564_2_alg».proof.Proof.RefNet
import proofs.«173554_j72438918414564_2_alg».proof.Proof.LibGatherCommute

noncomputable section

namespace Cert.KernelIdeal.Bridge

open Cert.KernelIdeal Cert.KernelIdeal.Hand
open Idealize.ShloMosaic Idealize.ShloMosaic.TcCoe Idealize.SL.Sem Idealize.ShloMosaic.ValueIdx Idealize.ShloMosaic.SegmentIdx
open Cert.LibDenseLayer Cert.HeteroLayers Cert.HeteroNet

variable (m : (ℓ : Loc nD τ sig) → Buf (Elt Ideal) ℓ) (c : Dev nD)

/-! ## The arguments, at their array types -/

abbrev a0 : IVec S200000 32 := m ((c : Thread nD τ).loc main_arg0)
abbrev a2 : IVec S100000 32 := m ((c : Thread nD τ).loc main_arg2)
abbrev a3 : IVec S1000000 32 := m ((c : Thread nD τ).loc main_arg3)
abbrev a4 : IVec S1000000 32 := m ((c : Thread nD τ).loc main_arg4)
abbrev a5 : IVec S1000000 32 := m ((c : Thread nD τ).loc main_arg5)
abbrev a6 : IVec S1000000 32 := m ((c : Thread nD τ).loc main_arg6)
abbrev a7 : IVec S500000 32 := m ((c : Thread nD τ).loc main_arg7)
abbrev a8 : FVec Ideal S10000x64 .f32 := m ((c : Thread nD τ).loc main_arg8)
abbrev a10 : FVec Ideal S1000x64 .f32 := m ((c : Thread nD τ).loc main_arg10)
abbrev a17 : FVec Ideal S64x64 .f32 := m ((c : Thread nD τ).loc main_arg17)
abbrev a18 : FVec Ideal S64 .f32 := m ((c : Thread nD τ).loc main_arg18)
abbrev a19 : FVec Ideal S64x64 .f32 := m ((c : Thread nD τ).loc main_arg19)
abbrev a20 : FVec Ideal S64 .f32 := m ((c : Thread nD τ).loc main_arg20)
abbrev a21 : FVec Ideal S64x64 .f32 := m ((c : Thread nD τ).loc main_arg21)
abbrev a22 : FVec Ideal S64 .f32 := m ((c : Thread nD τ).loc main_arg22)
abbrev a23 : FVec Ideal S64x32 .f32 := m ((c : Thread nD τ).loc main_arg23)
abbrev a24 : FVec Ideal S32 .f32 := m ((c : Thread nD τ).loc main_arg24)
abbrev a25 : FVec Ideal S32x1 .f32 := m ((c : Thread nD τ).loc main_arg25)
abbrev a26 : FVec Ideal S1 .f32 := m ((c : Thread nD τ).loc main_arg26)

/-! ## The two projected tables -/

/-- The first projected table: the first embedding table cut at zero, mapped densely. -/
theorem v1_eq : (v1 m c : FVec Ideal S10000x64 .f32) = dense (cut (a8 m c)) (a17 m c) (a18 m c) := by
  unfold v1
  rw [pay0_eq]
  exact congrArg (dense (cut (a8 m c)) (a17 m c)) (rowVec_cast (a18 m c) Gen.shapeCasts_S64_S1x64)

/-- The second projected table. -/
theorem v3_eq : (v3 m c : FVec Ideal S1000x64 .f32) = dense (cut (a10 m c)) (a19 m c) (a20 m c) := by
  unfold v3
  rw [pay1_eq]
  exact congrArg (dense (cut (a10 m c)) (a19 m c)) (rowVec_cast (a20 m c) Gen.shapeCasts_S64_S1x64)

/-! ## The messages -/

/-- The first relation's messages: a row of the projected table taken through the composed index is the projection
    of the embedding row taken through the two indices in turn. -/
theorem v24_eq : (v24 m c : FVec Ideal S1000000x64 .f32)
    = Cert.ReferenceIdeal.Hand.msgB (a8 m c) (a0 m c) (a3 m c) (a17 m c) (a18 m c) := by
  unfold v24 Cert.ReferenceIdeal.Hand.msgB
  rw [v1_eq]
  exact (messages_eq (N := 10000) (M := 200000) (E := 1000000) (K := 64) (L := 64) (by decide) (by decide)
    Cert.ReferenceIdeal.gather_S200000x64_S1000000x1_S1000000x64_1_0_n_n_0_1_164
    Cert.ReferenceIdeal.Gen.gather_S200000x64_S1000000x1_S1000000x64_1_0_n_n_0_1_164_wf rfl
    Cert.ReferenceIdeal.gather_S10000x64_S200000x1_S200000x64_1_0_n_n_0_1_164
    Cert.ReferenceIdeal.Gen.gather_S10000x64_S200000x1_S200000x64_1_0_n_n_0_1_164_wf rfl
    gather_S10000x64_S1000000x1_S1000000x64_1_0_n_n_0_1_164
    Gen.gather_S10000x64_S1000000x1_S1000000x64_1_0_n_n_0_1_164_wf rfl
    (a8 m c) (a17 m c) (a18 m c) (Cert.ReferenceIdeal.Hand.colBene (a0 m c)) (Cert.ReferenceIdeal.Hand.colSrcB (a3 m c)) _
    (fun e => composed_column (M := 200000) (E := 1000000) (by decide) 0#32 10000#32
      gather_S200000_S1000000x1_S1000000_n_0_n_n_0_1_1 Gen.gather_S200000_S1000000x1_S1000000_n_0_n_n_0_1_1_wf rfl
      ![0] rfl Gen.bcast_S1000000_S1000000x1_0 ![0] rfl Cert.ReferenceIdeal.Gen.bcast_S200000_S200000x1_0
      ![] Gen.bcast_S_S1000000 ![] Cert.ReferenceIdeal.Gen.bcast_S_S200000 (a0 m c) (Cert.ReferenceIdeal.Hand.colSrcB (a3 m c)) e)).symm

/-- The second relation's messages. -/
theorem v31_eq : (v31 m c : FVec Ideal S1000000x64 .f32)
    = Cert.ReferenceIdeal.Hand.msgT (a10 m c) (a2 m c) (a5 m c) (a19 m c) (a20 m c) := by
  unfold v31 Cert.ReferenceIdeal.Hand.msgT
  rw [v3_eq]
  exact (messages_eq (N := 1000) (M := 100000) (E := 1000000) (K := 64) (L := 64) (by decide) (by decide)
    Cert.ReferenceIdeal.gather_S100000x64_S1000000x1_S1000000x64_1_0_n_n_0_1_164
    Cert.ReferenceIdeal.Gen.gather_S100000x64_S1000000x1_S1000000x64_1_0_n_n_0_1_164_wf rfl
    Cert.ReferenceIdeal.gather_S1000x64_S100000x1_S100000x64_1_0_n_n_0_1_164
    Cert.ReferenceIdeal.Gen.gather_S1000x64_S100000x1_S100000x64_1_0_n_n_0_1_164_wf rfl
    gather_S1000x64_S1000000x1_S1000000x64_1_0_n_n_0_1_164
    Gen.gather_S1000x64_S1000000x1_S1000000x64_1_0_n_n_0_1_164_wf rfl
    (a10 m c) (a19 m c) (a20 m c) (Cert.ReferenceIdeal.Hand.colTreat (a2 m c)) (Cert.ReferenceIdeal.Hand.colSrcT (a5 m c)) _
    (fun e => composed_column (M := 100000) (E := 1000000) (by decide) 0#32 1000#32
      gather_S100000_S1000000x1_S1000000_n_0_n_n_0_1_1 Gen.gather_S100000_S1000000x1_S1000000_n_0_n_n_0_1_1_wf rfl
      ![0] rfl Gen.bcast_S1000000_S1000000x1_0 ![0] rfl Cert.ReferenceIdeal.Gen.bcast_S100000_S100000x1_0
      ![] Gen.bcast_S_S1000000 ![] Cert.ReferenceIdeal.Gen.bcast_S_S100000 (a2 m c) (Cert.ReferenceIdeal.Hand.colSrcT (a5 m c)) e)).symm

/-! ## The combined table and the scores -/

/-- The combined table: the same two sums over target rows and their mean, of the same messages. -/
theorem v40_eq : (v40 m c : FVec Ideal S10000x64 .f32)
    = Cert.ReferenceIdeal.Hand.combine (a4 m c) (a6 m c)
        (Cert.ReferenceIdeal.Hand.msgB (a8 m c) (a0 m c) (a3 m c) (a17 m c) (a18 m c))
        (Cert.ReferenceIdeal.Hand.msgT (a10 m c) (a2 m c) (a5 m c) (a19 m c) (a20 m c)) := by
  unfold v40 v34 v37
  rw [v24_eq, v31_eq]
  rfl

/-- The result: each instance's taken score is the score of its taken row. -/
theorem v52_eq : (v52 m c : FVec Ideal S500000 .f32)
    = Cert.ReferenceIdeal.Hand.scores (v40 m c) (a7 m c) (a21 m c) (a22 m c) (a23 m c) (a24 m c) (a25 m c) (a26 m c) := by
  have h41 : rowVec (v41 m c) = a22 m c := rowVec_cast (a22 m c) Gen.shapeCasts_S64_S1x64
  have h42 : rowVec (v42 m c) = a24 m c := rowVec_cast (a24 m c) Gen.shapeCasts_S32_S1x32
  have h43 : rowVec (v43 m c) = a26 m c := rowVec_cast (a26 m c) Gen.shapeCasts_S1_S1x1
  unfold v52 v51 v44
  rw [pay2_eq, h41, h42, h43]
  exact tail_eq (N := 10000) (I := 500000) (A := 64) (B := 64) (C := 32) (by decide)
    gather_S10000x1_S500000x1_S500000x1_1_0_n_n_0_1_11 Gen.gather_S10000x1_S500000x1_S500000x1_1_0_n_n_0_1_11_wf rfl
    Cert.ReferenceIdeal.gather_S10000x64_S500000x1_S500000x64_1_0_n_n_0_1_164
    Cert.ReferenceIdeal.Gen.gather_S10000x64_S500000x1_S500000x64_1_0_n_n_0_1_164_wf rfl
    (v40 m c) (a21 m c) (a22 m c) (a23 m c) (a24 m c) (a25 m c) (a26 m c) _ Gen.shapeCasts_S500000x1_S500000

/-- The kernel program's result is the reference's function of the kernel's own argument arrays. -/
theorem kernel_eq : (v52 m c : FVec Ideal S500000 .f32)
    = Cert.ReferenceIdeal.Hand.result (a0 m c) (a2 m c) (a3 m c) (a4 m c) (a5 m c) (a6 m c) (a7 m c) (a8 m c) (a10 m c)
        (a17 m c) (a18 m c) (a19 m c) (a20 m c) (a21 m c) (a22 m c) (a23 m c) (a24 m c) (a25 m c) (a26 m c) := by
  rw [v52_eq, v40_eq]
  rfl

end Cert.KernelIdeal.Bridge

end
-- ==== Proof.lean ====
/-
  A heterogeneous graph network's scores, computed by projecting the small embedding tables before the gathers.

  The reference takes, for every edge of two relations, the source node's embedding row (cut at zero), maps it through
  a weight matrix and a bias, and adds it into the target node's row; it averages the two relations' sums, maps the
  average through an update layer cut at zero, lets every instance take its node's row, and scores the row by two
  more dense layers and a sigmoid. (The source program's first message-passing layer produces only a table that its
  second layer never reads; it is not part of the result.) The kernel program maps the two embedding TABLES once
  through the same weights, lets the edges take rows of the mapped tables through the composed index, adds and
  averages them as the reference does, scores the ten thousand node rows in one kernel, and lets every instance take
  its node's score.

  On the extended reals the two results are equal entry by entry for every input, integer indices included, with no
  finiteness used: a gather moves whole rows and a dense layer, a cut and a sigmoid act on each row by itself, so they
  commute with it (LibGatherCommute.lean); rounding an operand to bf16 is the identity; the kernel's one logistic operation is the
  reference's  1 / (1 + e^(-x))  by the definition of the logistic function on the extended reals (LibKernelDense.lean).
  The reference's run and its result term are the generated ones (RefNet.lean rewrites the term stage by stage); the
  kernel program's run goes through its three one-point regions and four stretches of host operations, each region's
  output array being its body's stored value of the whole input arrays (RegionArrays.lean, KernelValue.lean).
  The idealization pass rewrote nothing, so its conjunct is trivial.
-/
import proofs.«173554_j72438918414564_2_alg».proof.Defs
import proofs.«173554_j72438918414564_2_alg».proof.Proof.Gen.Kernel
import proofs.«173554_j72438918414564_2_alg».proof.Proof.Gen.KernelIdeal
import proofs.«173554_j72438918414564_2_alg».proof.Proof.Gen.ReferenceIdeal
import proofs.«173554_j72438918414564_2_alg».proof.Proof.Gen.ReferenceIdeal.Run
import proofs.«173554_j72438918414564_2_alg».proof.Proof.Gen.Pre_finite_inputs
import proofs.«173554_j72438918414564_2_alg».proof.Proof.FrameK
import proofs.«173554_j72438918414564_2_alg».proof.Proof.FrameKI
import proofs.«173554_j72438918414564_2_alg».proof.Proof.KernelValue
import proofs.«173554_j72438918414564_2_alg».proof.Proof.RefNet
import proofs.«173554_j72438918414564_2_alg».proof.Proof.Bridge
import Idealize.ShloMosaic.Adequacy
import Idealize.ShloMosaic.Init

noncomputable section

namespace Cert.Proof

open Idealize.ShloMosaic Idealize.SL.Sem

/-- The word-level kernel program terminates without a fault and leaves its arguments as they were. -/
theorem frame_kernel : Cert.frame_Kernel := fun m ρ _ => Cert.Kernel.GenP.frame m ρ

/-- So does the idealized kernel program. -/
theorem frame_kernel_ideal : Cert.frame_KernelIdeal := fun m ρ _ => Cert.KernelIdeal.GenP.frame m ρ

/-- So does the idealized reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the
    reference's function of the arguments, which is what the kernel program computes. -/
theorem algebraic : Cert.algebraic_KernelIdeal_ReferenceIdeal := by
  intro m ρ m' ρ' _ hagree
  refine ⟨fun c => Cert.KernelIdeal.Hand.v52 (F := Ideal) m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, h2, h3, h4, h5, h6, h7, h8, -, h10, -, -, -, -, -, -, h17, h18, h19, h20, h21, h22, h23, h24, h25, h26⟩ :=
    hagree c
  rw [Cert.ReferenceIdeal.Hand.result_eq, h0, h2, h3, h4, h5, h6, h7, h8, h10, h17, h18, h19, h20, h21, h22, h23, h24,
    h25, h26]
  exact (Cert.KernelIdeal.Bridge.kernel_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
